-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S8x1024x1024x3 : Shape := ⟨4, ![8, 1024, 1024, 3]⟩
abbrev S8x35709x3 : Shape := ⟨3, ![8, 35709, 3]⟩
abbrev S70789x3 : Shape := ⟨2, ![70789, 3]⟩
abbrev S_ : Shape := ⟨0, ![]⟩

class Facts : Prop where
  bcast_S_S8x1024x1024x3 : S_.BroadcastsInDim S8x1024x1024x3 (![] : Fin 0 → Fin S8x1024x1024x3.rank)
  reducesTo_S8x1024x1024x3_S_d0_1_2_3 : S8x1024x1024x3.ReducesTo [0, 1, 2, 3] S_
  h_S_ : 0 < S_.numel
  bcast_S_S8x35709x3 : S_.BroadcastsInDim S8x35709x3 (![] : Fin 0 → Fin S8x35709x3.rank)
  reducesTo_S8x35709x3_S_d0_1_2 : S8x35709x3.ReducesTo [0, 1, 2] S_
  bcast_S_S70789x3 : S_.BroadcastsInDim S70789x3 (![] : Fin 0 → Fin S70789x3.rank)
  reducesTo_S70789x3_S_d0_1 : S70789x3.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S8x1024x1024 32) (main_arg1 : FVec F S8x1024x1024x3 .f32) (main_arg2 : FVec F S8x35709x3 .f32) (main_arg3 : IVec S70789x3 32) : IVec S_ 1 :=
  let main_v0 : FVec F S8x1024x1024x3 .f32 := Host.absf main_arg1
  let main_cst : FVec F S_ .f32 := constant S_ .f32 0x7F800000#32
  let main_v1 : FVec F S8x1024x1024x3 .f32 := broadcastInDim S8x1024x1024x3 ![] bcast_S_S8x1024x1024x3 main_cst
  let main_v2 : IVec S8x1024x1024x3 1 := cmpf .olt main_v0 main_v1
  let main_c : IVec S_ 1 := constantI S_ 1 1#1
  let main_v3 : IVec S_ 1 := (fun x v => Host.reduce IntOp.andi x v reducesTo_S8x1024x1024x3_S_d0_1_2_3 h_S_) main_v2 main_c
  let main_v4 : FVec F S8x35709x3 .f32 := Host.absf main_arg2
  let main_cst_0 : FVec F S_ .f32 := constant S_ .f32 0x7F800000#32
  let main_v5 : FVec F S8x35709x3 .f32 := broadcastInDim S8x35709x3 ![] bcast_S_S8x35709x3 main_cst_0
  let main_v6 : IVec S8x35709x3 1 := cmpf .olt main_v4 main_v5
  let main_c_1 : IVec S_ 1 := constantI S_ 1 1#1
  let main_v7 : IVec S_ 1 := (fun x v => Host.reduce IntOp.andi x v reducesTo_S8x35709x3_S_d0_1_2 h_S_) main_v6 main_c_1
  let main_v8 : IVec S_ 1 := andi main_v3 main_v7
  let main_c_2 : IVec S_ 32 := constantI S_ 32 0#32
  let main_v9 : IVec S70789x3 32 := broadcastInDim S70789x3 ![] bcast_S_S70789x3 main_c_2
  let main_v10 : IVec S70789x3 1 := cmpi .sge main_arg3 main_v9
  let main_c_3 : IVec S_ 1 := constantI S_ 1 1#1
  let main_v11 : IVec S_ 1 := (fun x v => Host.reduce IntOp.andi x v reducesTo_S70789x3_S_d0_1 h_S_) main_v10 main_c_3
  let main_v12 : IVec S_ 1 := andi main_v8 main_v11
  let main_c_4 : IVec S_ 32 := constantI S_ 32 35709#32
  let main_v13 : IVec S70789x3 32 := broadcastInDim S70789x3 ![] bcast_S_S70789x3 main_c_4
  let main_v14 : IVec S70789x3 1 := cmpi .slt main_arg3 main_v13
  let main_c_5 : IVec S_ 1 := constantI S_ 1 1#1
  let main_v15 : IVec S_ 1 := (fun x v => Host.reduce IntOp.andi x v reducesTo_S70789x3_S_d0_1 h_S_) main_v14 main_c_5
  fn_part1 (F := F) main_v12 main_v15
-- ==== Kernel.lean ====
abbrev S8x1024x1024 : Shape := ⟨3, ![8, 1024, 1024]⟩
abbrev S8x1024x1024x3 : Shape := ⟨4, ![8, 1024, 1024, 3]⟩
abbrev S8x35709x3 : Shape := ⟨3, ![8, 35709, 3]⟩
abbrev S70789x3 : Shape := ⟨2, ![70789, 3]⟩
abbrev S_ : Shape := ⟨0, ![]⟩
abbrev S8x1024x1024x1 : Shape := ⟨4, ![8, 1024, 1024, 1]⟩
abbrev S8 : Shape := ⟨1, ![8]⟩
abbrev S8x1x1x1 : Shape := ⟨4, ![8, 1, 1, 1]⟩
abbrev S8x1024x1024x3x1 : Shape := ⟨5, ![8, 1024, 1024, 3, 1]⟩
abbrev S8x1024x1024x3x2 : Shape := ⟨5, ![8, 1024, 1024, 3, 2]⟩
abbrev S8x1024x1024x3x3 : Shape := ⟨5, ![8, 1024, 1024, 3, 3]⟩
abbrev S8x3x3x1024x1024 : Shape := ⟨5, ![8, 3, 3, 1024, 1024]⟩
abbrev S8x9x1024x1024 : Shape := ⟨4, ![8, 9, 1024, 1024]⟩
abbrev S8x3x1024x1024 : Shape := ⟨4, ![8, 3, 1024, 1024]⟩
abbrev S8x1x1024x1024 : Shape := ⟨4, ![8, 1, 1024, 1024]⟩
abbrev S1x9x128x1024 : Shape := ⟨4, ![1, 9, 128, 1024]⟩
abbrev S1x3x128x1024 : Shape := ⟨4, ![1, 3, 128, 1024]⟩
abbrev S1x1x128x1024 : Shape := ⟨4, ![1, 1, 128, 1024]⟩
abbrev S9x128x1024 : Shape := ⟨3, ![9, 128, 1024]⟩
abbrev S3x128x1024 : Shape := ⟨3, ![3, 128, 1024]⟩
abbrev S1x128x1024 : Shape := ⟨3, ![1, 128, 1024]⟩
abbrev S128x1024 : Shape := ⟨2, ![128, 1024]⟩

abbrev nBuf : Space → Nat
  | .hbm => 39
  | .vmem => 8
  | .smem => 0
  | _ => 0

abbrev bufTy : (tb : Table) → Fin (tcTables nBuf tb) → BufTy
  | .hbm, ⟨0, _⟩ => ⟨S8x1024x1024, .i32⟩
  | .hbm, ⟨1, _⟩ => ⟨S8x1024x1024x3, .f32⟩
  | .hbm, ⟨2, _⟩ => ⟨S8x35709x3, .f32⟩
  | .hbm, ⟨3, _⟩ => ⟨S70789x3, .i32⟩
  | .hbm, ⟨4, _⟩ => ⟨S_, .i32⟩
  | .hbm, ⟨5, _⟩ => ⟨S8x1024x1024, .i32⟩
  | .hbm, ⟨6, _⟩ => ⟨S8x1024x1024, .i1⟩
  | .hbm, ⟨7, _⟩ => ⟨S_, .i32⟩
  | .hbm, ⟨8, _⟩ => ⟨S8x1024x1024, .i32⟩
  | .hbm, ⟨9, _⟩ => ⟨S8x1024x1024, .i32⟩
  | .hbm, ⟨10, _⟩ => ⟨S8x1024x1024, .i32⟩
  | .hbm, ⟨11, _⟩ => ⟨S8x1024x1024x1, .i32⟩
  | .hbm, ⟨12, _⟩ => ⟨S8x1024x1024x3, .i32⟩
  | .hbm, ⟨13, _⟩ => ⟨S8, .i32⟩
  | .hbm, ⟨14, _⟩ => ⟨S8x1x1x1, .i32⟩
  | .hbm, ⟨15, _⟩ => ⟨S_, .i32⟩
  | .hbm, ⟨16, _⟩ => ⟨S8x1x1x1, .i32⟩
  | .hbm, ⟨17, _⟩ => ⟨S8x1x1x1, .i1⟩
  | .hbm, ⟨18, _⟩ => ⟨S_, .i32⟩
  | .hbm, ⟨19, _⟩ => ⟨S8x1x1x1, .i32⟩
  | .hbm, ⟨20, _⟩ => ⟨S8x1x1x1, .i32⟩
  | .hbm, ⟨21, _⟩ => ⟨S8x1x1x1, .i32⟩
  | .hbm, ⟨22, _⟩ => ⟨S_, .i32⟩
  | .hbm, ⟨23, _⟩ => ⟨S8x1024x1024x3, .i32⟩
  | .hbm, ⟨24, _⟩ => ⟨S8x1024x1024x3, .i1⟩
  | .hbm, ⟨25, _⟩ => ⟨S_, .i32⟩
  | .hbm, ⟨26, _⟩ => ⟨S8x1024x1024x3, .i32⟩
  | .hbm, ⟨27, _⟩ => ⟨S8x1024x1024x3, .i32⟩
  | .hbm, ⟨28, _⟩ => ⟨S8x1024x1024x3, .i32⟩
  | .hbm, ⟨29, _⟩ => ⟨S8x1024x1024x3, .i32⟩
  | .hbm, ⟨30, _⟩ => ⟨S8x1024x1024x3x1, .i32⟩
  | .hbm, ⟨31, _⟩ => ⟨S8x1024x1024x3x1, .i32⟩
  | .hbm, ⟨32, _⟩ => ⟨S8x1024x1024x3x2, .i32⟩
  | .hbm, ⟨33, _⟩ => ⟨S8x1024x1024x3x3, .f32⟩
  | .hbm, ⟨34, _⟩ => ⟨S8x3x3x1024x1024, .f32⟩
  | .hbm, ⟨35, _⟩ => ⟨S8x9x1024x1024, .f32⟩
  | .hbm, ⟨36, _⟩ => ⟨S8x3x1024x1024, .f32⟩
  | .hbm, ⟨37, _⟩ => ⟨S8x3x1024x1024, .f32⟩
  | .hbm, ⟨38, _⟩ => ⟨S8x1x1024x1024, .f32⟩
  | .local _ .vmem, ⟨0, _⟩ => ⟨S1x9x128x1024, .f32⟩
  | .local _ .vmem, ⟨1, _⟩ => ⟨S1x9x128x1024, .f32⟩
  | .local _ .vmem, ⟨2, _⟩ => ⟨S1x3x128x1024, .f32⟩
  | .local _ .vmem, ⟨3, _⟩ => ⟨S1x3x128x1024, .f32⟩
  | .local _ .vmem, ⟨4, _⟩ => ⟨S1x3x128x1024, .f32⟩
  | .local _ .vmem, ⟨5, _⟩ => ⟨S1x3x128x1024, .f32⟩
  | .local _ .vmem, ⟨6, _⟩ => ⟨S1x1x128x1024, .f32⟩
  | .local _ .vmem, ⟨7, _⟩ => ⟨S1x1x128x1024, .f32⟩
  | _, _ => ⟨S8x1024x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27_0 : Ref sig .tc := ⟨.hbm, 37, rfl⟩
abbrev main_v27_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x9x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S8x1024x1024 : S_.BroadcastsInDim S8x1024x1024 (![] : Fin 0 → Fin S8x1024x1024.rank)
  bcast_S8x1024x1024_S8x1024x1024x1_0_1_2 : S8x1024x1024.BroadcastsInDim S8x1024x1024x1 (![0, 1, 2] : Fin 3 → Fin S8x1024x1024x1.rank)
  bcast_S8_S8x1x1x1_0 : S8.BroadcastsInDim S8x1x1x1 (![0] : Fin 1 → Fin S8x1x1x1.rank)
  bcast_S_S8x1x1x1 : S_.BroadcastsInDim S8x1x1x1 (![] : Fin 0 → Fin S8x1x1x1.rank)
  bcast_S_S8x1024x1024x3 : S_.BroadcastsInDim S8x1024x1024x3 (![] : Fin 0 → Fin S8x1024x1024x3.rank)
  bcast_S8x1x1x1_S8x1024x1024x3_0_1_2_3 : S8x1x1x1.BroadcastsInDim S8x1024x1024x3 (![0, 1, 2, 3] : Fin 4 → Fin S8x1024x1024x3.rank)
  bcast_S8x1024x1024x3_S8x1024x1024x3x1_0_1_2_3 : S8x1024x1024x3.BroadcastsInDim S8x1024x1024x3x1 (![0, 1, 2, 3] : Fin 4 → Fin S8x1024x1024x3x1.rank)
  concatenates_S8x1024x1024x3x1_S8x1024x1024x3x1_S8x1024x1024x3x2_d4 : Shape.Concatenates [S8x1024x1024x3x1, S8x1024x1024x3x1] S8x1024x1024x3x2 4
  transposes_S8x1024x1024x3x3_S8x3x3x1024x1024_0_3_4_1_2 : S8x1024x1024x3x3.Transposes [0, 3, 4, 1, 2] S8x3x3x1024x1024
  shapeCasts_S8x3x3x1024x1024_S8x9x1024x1024 : S8x3x3x1024x1024.ShapeCasts S8x9x1024x1024
  transposes_S8x1024x1024x3_S8x3x1024x1024_0_3_1_2 : S8x1024x1024x3.Transposes [0, 3, 1, 2] S8x3x1024x1024
  inb_S1x9x128x1024_S1x9x128x1024_0_0_0_0 : ∀ a, (![0, 0, 0, 0] : Fin 4 → Nat) a + S1x9x128x1024.size a ≤ S1x9x128x1024.size a
  h_S1x9x128x1024 : 0 < S1x9x128x1024.numel
  shapeCasts_S1x9x128x1024_S9x128x1024 : S1x9x128x1024.ShapeCasts S9x128x1024
  inb_S1x3x128x1024_S1x3x128x1024_0_0_0_0 : ∀ a, (![0, 0, 0, 0] : Fin 4 → Nat) a + S1x3x128x1024.size a ≤ S1x3x128x1024.size a
  h_S1x3x128x1024 : 0 < S1x3x128x1024.numel
  shapeCasts_S1x3x128x1024_S3x128x1024 : S1x3x128x1024.ShapeCasts S3x128x1024
  slices_S3x128x1024_o0_0_0_S1x128x1024 : S3x128x1024.Slices ![0, 0, 0] S1x128x1024
  shapeCasts_S1x128x1024_S128x1024 : S1x128x1024.ShapeCasts S128x1024
  slices_S3x128x1024_o1_0_0_S1x128x1024 : S3x128x1024.Slices ![1, 0, 0] S1x128x1024
  slices_S3x128x1024_o2_0_0_S1x128x1024 : S3x128x1024.Slices ![2, 0, 0] S1x128x1024
  slices_S9x128x1024_o0_0_0_S1x128x1024 : S9x128x1024.Slices ![0, 0, 0] S1x128x1024
  slices_S9x128x1024_o3_0_0_S1x128x1024 : S9x128x1024.Slices ![3, 0, 0] S1x128x1024
  slices_S9x128x1024_o6_0_0_S1x128x1024 : S9x128x1024.Slices ![6, 0, 0] S1x128x1024
  slices_S9x128x1024_o1_0_0_S1x128x1024 : S9x128x1024.Slices ![1, 0, 0] S1x128x1024
  slices_S9x128x1024_o4_0_0_S1x128x1024 : S9x128x1024.Slices ![4, 0, 0] S1x128x1024
  slices_S9x128x1024_o7_0_0_S1x128x1024 : S9x128x1024.Slices ![7, 0, 0] S1x128x1024
  slices_S9x128x1024_o2_0_0_S1x128x1024 : S9x128x1024.Slices ![2, 0, 0] S1x128x1024
  slices_S9x128x1024_o5_0_0_S1x128x1024 : S9x128x1024.Slices ![5, 0, 0] S1x128x1024
  slices_S9x128x1024_o8_0_0_S1x128x1024 : S9x128x1024.Slices ![8, 0, 0] S1x128x1024
  shapeCasts_S128x1024_S1x128x1024 : S128x1024.ShapeCasts S1x128x1024
  concatenates_S1x128x1024_S1x128x1024_S1x128x1024_S3x128x1024_d0 : Shape.Concatenates [S1x128x1024, S1x128x1024, S1x128x1024] S3x128x1024 0
  shapeCasts_S3x128x1024_S1x3x128x1024 : S3x128x1024.ShapeCasts S1x3x128x1024
  inb_S1x1x128x1024_S1x1x128x1024_0_0_0_0 : ∀ a, (![0, 0, 0, 0] : Fin 4 → Nat) a + S1x1x128x1024.size a ≤ S1x1x128x1024.size a
  h_S1x1x128x1024 : 0 < S1x1x128x1024.numel
  shapeCasts_S1x1x128x1024_S1x128x1024 : S1x1x128x1024.ShapeCasts S1x128x1024
  shapeCasts_S1x128x1024_S1x1x128x1024 : S1x128x1024.ShapeCasts S1x1x128x1024
  gather_S70789x3_S8x1024x1024x1_S8x1024x1024x3_3_0_n_n_0_3_13_wf : GatherDims.WF S70789x3 S8x1024x1024x1 S8x1024x1024x3 [3] [0] [] [0] [] 3 ![1, 3]
  gather_S8x35709x3_S8x1024x1024x3x2_S8x1024x1024x3x3_4_01_n_n_01_4_113_wf : GatherDims.WF S8x35709x3 S8x1024x1024x3x2 S8x1024x1024x3x3 [4] [0, 1] [] [0, 1] [] 4 ![1, 1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x9x128x1024.size a ≤ S8x9x1024x1024.size a
  hwx0_0 : ∀ i : grid0.Coords, EltTy.bits .f32 = 32 ∨ (Rect.block (s := S8x9x1024x1024) S1x9x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x128x1024.size a ≤ S8x3x1024x1024.size a
  hwx0_1 : ∀ i : grid0.Coords, EltTy.bits .f32 = 32 ∨ (Rect.block (s := S8x3x1024x1024) S1x3x128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x128x1024.size a ≤ S8x3x1024x1024.size a
  hwx0_2 : ∀ i : grid0.Coords, EltTy.bits .f32 = 32 ∨ (Rect.block (s := S8x3x1024x1024) S1x3x128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128x1024.size a ≤ S8x1x1024x1024.size a
  hwx0_3 : ∀ i : grid0.Coords, EltTy.bits .f32 = 32 ∨ (Rect.block (s := S8x1x1024x1024) S1x1x128x1024.size (cc0_transform_3 i) (hinb0_3 i)).WholeWords (EltTy.packing .f32)

variable [Facts₀]

def gather_S70789x3_S8x1024x1024x1_S8x1024x1024x3_3_0_n_n_0_3_13 : GatherDims S70789x3 S8x1024x1024x1 S8x1024x1024x3 where
  offsetDims := [3]
  collapsedSliceDims := [0]
  operandBatchingDims := []
  startIndicesBatchingDims := []
  startIndexMap := [0]
  indexVectorDim := 3
  sliceSizes := ![1, 3]
  wf := gather_S70789x3_S8x1024x1024x1_S8x1024x1024x3_3_0_n_n_0_3_13_wf
def gather_S8x35709x3_S8x1024x1024x3x2_S8x1024x1024x3x3_4_01_n_n_01_4_113 : GatherDims S8x35709x3 S8x1024x1024x3x2 S8x1024x1024x3x3 where
  offsetDims := [4]
  collapsedSliceDims := [0, 1]
  operandBatchingDims := []
  startIndicesBatchingDims := []
  startIndexMap := [0, 1]
  indexVectorDim := 4
  sliceSizes := ![1, 1, 3]
  wf := gather_S8x35709x3_S8x1024x1024x3x2_S8x1024x1024x3x3_4_01_n_n_01_4_113_wf

abbrev win0_0 : Pipeline.Window sig grid0 :=
  Pipeline.Window.ofSpec (Memref.whole main_v25) S1x9x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S1x3x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27_0) S1x3x128x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27_1) S1x1x128x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x1024x1024 : Shape := ⟨3, ![8, 1024, 1024]⟩
abbrev S8x1024x1024x3 : Shape := ⟨4, ![8, 1024, 1024, 3]⟩
abbrev S8x35709x3 : Shape := ⟨3, ![8, 35709, 3]⟩
abbrev S70789x3 : Shape := ⟨2, ![70789, 3]⟩
abbrev S_ : Shape := ⟨0, ![]⟩
abbrev S8x1024x1024x1 : Shape := ⟨4, ![8, 1024, 1024, 1]⟩
abbrev S8 : Shape := ⟨1, ![8]⟩
abbrev S8x1x1x1 : Shape := ⟨4, ![8, 1, 1, 1]⟩
abbrev S8388608x3 : Shape := ⟨2, ![8388608, 3]⟩
abbrev S285672x3 : Shape := ⟨2, ![285672, 3]⟩
abbrev S8388608x3x1 : Shape := ⟨3, ![8388608, 3, 1]⟩
abbrev S8388608x3x3 : Shape := ⟨3, ![8388608, 3, 3]⟩
abbrev S8x3x1024x1024 : Shape := ⟨4, ![8, 3, 1024, 1024]⟩
abbrev S8388608x1 : Shape := ⟨2, ![8388608, 1]⟩
abbrev S8x1x1024x1024 : Shape := ⟨4, ![8, 1, 1024, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8x1024x1024, .i32⟩
  | .hbm, ⟨1, _⟩ => ⟨S8x1024x1024x3, .f32⟩
  | .hbm, ⟨2, _⟩ => ⟨S8x35709x3, .f32⟩
  | .hbm, ⟨3, _⟩ => ⟨S70789x3, .i32⟩
  | .hbm, ⟨4, _⟩ => ⟨S_, .i32⟩
  | .hbm, ⟨5, _⟩ => ⟨S8x1024x1024, .i32⟩
  | .hbm, ⟨6, _⟩ => ⟨S8x1024x1024, .i1⟩
  | .hbm, ⟨7, _⟩ => ⟨S_, .i32⟩
  | .hbm, ⟨8, _⟩ => ⟨S8x1024x1024, .i32⟩
  | .hbm, ⟨9, _⟩ => ⟨S8x1024x1024, .i32⟩
  | .hbm, ⟨10, _⟩ => ⟨S8x1024x1024, .i32⟩
  | .hbm, ⟨11, _⟩ => ⟨S8x1024x1024x1, .i32⟩
  | .hbm, ⟨12, _⟩ => ⟨S8x1024x1024x3, .i32⟩
  | .hbm, ⟨13, _⟩ => ⟨S8, .i32⟩
  | .hbm, ⟨14, _⟩ => ⟨S_, .i32⟩
  | .hbm, ⟨15, _⟩ => ⟨S8, .i32⟩
  | .hbm, ⟨16, _⟩ => ⟨S8, .i32⟩
  | .hbm, ⟨17, _⟩ => ⟨S8x1x1x1, .i32⟩
  | .hbm, ⟨18, _⟩ => ⟨S8x1024x1024x3, .i32⟩
  | .hbm, ⟨19, _⟩ => ⟨S8x1024x1024x3, .i32⟩
  | .hbm, ⟨20, _⟩ => ⟨S8388608x3, .i32⟩
  | .hbm, ⟨21, _⟩ => ⟨S285672x3, .f32⟩
  | .hbm, ⟨22, _⟩ => ⟨S_, .i32⟩
  | .hbm, ⟨23, _⟩ => ⟨S8388608x3, .i32⟩
  | .hbm, ⟨24, _⟩ => ⟨S8388608x3, .i1⟩
  | .hbm, ⟨25, _⟩ => ⟨S_, .i32⟩
  | .hbm, ⟨26, _⟩ => ⟨S8388608x3, .i32⟩
  | .hbm, ⟨27, _⟩ => ⟨S8388608x3, .i32⟩
  | .hbm, ⟨28, _⟩ => ⟨S8388608x3, .i32⟩
  | .hbm, ⟨29, _⟩ => ⟨S8388608x3x1, .i32⟩
  | .hbm, ⟨30, _⟩ => ⟨S8388608x3x3, .f32⟩
  | .hbm, ⟨31, _⟩ => ⟨S8388608x3x1, .f32⟩
  | .hbm, ⟨32, _⟩ => ⟨S8388608x3x3, .f32⟩
  | .hbm, ⟨33, _⟩ => ⟨S8388608x3x3, .f32⟩
  | .hbm, ⟨34, _⟩ => ⟨S_, .f32⟩
  | .hbm, ⟨35, _⟩ => ⟨S8388608x3, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8388608x3, .f32⟩
  | .hbm, ⟨40, _⟩ => ⟨S8388608x3, .f32⟩
  | .hbm, ⟨41, _⟩ => ⟨S_, .f32⟩
  | .hbm, ⟨42, _⟩ => ⟨S8388608x3, .f32⟩
  | .hbm, ⟨43, _⟩ => ⟨S8388608x3, .f32⟩
  | .hbm, ⟨44, _⟩ => ⟨S8x1024x1024x3, .f32⟩
  | .hbm, ⟨45, _⟩ => ⟨S8x3x1024x1024, .f32⟩
  | .hbm, ⟨46, _⟩ => ⟨S_, .f32⟩
  | .hbm, ⟨47, _⟩ => ⟨S8388608x3x1, .f32⟩
  | .hbm, ⟨48, _⟩ => ⟨S8388608x3x1, .f32⟩
  | .hbm, ⟨49, _⟩ => ⟨S_, .f32⟩
  | .hbm, ⟨50, _⟩ => ⟨S8388608x1, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S8388608x1, .f32⟩
  | .hbm, ⟨55, _⟩ => ⟨S8388608x1, .f32⟩
  | .hbm, ⟨56, _⟩ => ⟨S_, .f32⟩
  | .hbm, ⟨57, _⟩ => ⟨S8388608x1, .f32⟩
  | .hbm, ⟨58, _⟩ => ⟨S8388608x1, .f32⟩
  | .hbm, ⟨59, _⟩ => ⟨S8x1x1024x1024, .f32⟩
  | _, _ => ⟨S8x1024x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_v25 : Ref sig .tc := ⟨.hbm, 35, rfl⟩
abbrev main_cst_4 : Ref sig .tc := ⟨.hbm, 36, rfl⟩
abbrev main_cst_5 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_cst_9 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v32 : Ref sig .tc := ⟨.hbm, 58, rfl⟩
abbrev main_v33 : Ref sig .tc := ⟨.hbm, 59, rfl⟩

abbrev nD : Nat := 1
abbrev τ : Topo := Topo.v7x

variable {F : FTy → Type} [FloatOps F]

class Facts₀ : Prop where
  bcast_S_S8x1024x1024 : S_.BroadcastsInDim S8x1024x1024 (![] : Fin 0 → Fin S8x1024x1024.rank)
  bcast_S8x1024x1024_S8x1024x1024x1_0_1_2 : S8x1024x1024.BroadcastsInDim S8x1024x1024x1 (![0, 1, 2] : Fin 3 → Fin S8x1024x1024x1.rank)
  bcast_S_S8 : S_.BroadcastsInDim S8 (![] : Fin 0 → Fin S8.rank)
  bcast_S8_S8x1x1x1_0 : S8.BroadcastsInDim S8x1x1x1 (![0] : Fin 1 → Fin S8x1x1x1.rank)
  bcast_S8x1x1x1_S8x1024x1024x3_0_1_2_3 : S8x1x1x1.BroadcastsInDim S8x1024x1024x3 (![0, 1, 2, 3] : Fin 4 → Fin S8x1024x1024x3.rank)
  shapeCasts_S8x1024x1024x3_S8388608x3 : S8x1024x1024x3.ShapeCasts S8388608x3
  shapeCasts_S8x35709x3_S285672x3 : S8x35709x3.ShapeCasts S285672x3
  bcast_S_S8388608x3 : S_.BroadcastsInDim S8388608x3 (![] : Fin 0 → Fin S8388608x3.rank)
  bcast_S8388608x3_S8388608x3x1_0_1 : S8388608x3.BroadcastsInDim S8388608x3x1 (![0, 1] : Fin 2 → Fin S8388608x3x1.rank)
  shapeCasts_S8x1024x1024x3_S8388608x3x1 : S8x1024x1024x3.ShapeCasts S8388608x3x1
  bcast_S8388608x3x1_S8388608x3x3_0_1_2 : S8388608x3x1.BroadcastsInDim S8388608x3x3 (![0, 1, 2] : Fin 3 → Fin S8388608x3x3.rank)
  reducesTo_S8388608x3x3_S8388608x3_d1 : S8388608x3x3.ReducesTo [1] S8388608x3
  h_S_ : 0 < S_.numel
  shapeCasts_S8388608x3_S8x1024x1024x3 : S8388608x3.ShapeCasts S8x1024x1024x3
  transposes_S8x1024x1024x3_S8x3x1024x1024_0_3_1_2 : S8x1024x1024x3.Transposes [0, 3, 1, 2] S8x3x1024x1024
  bcast_S_S8388608x3x1 : S_.BroadcastsInDim S8388608x3x1 (![] : Fin 0 → Fin S8388608x3x1.rank)
  reducesTo_S8388608x3x1_S8388608x1_d1 : S8388608x3x1.ReducesTo [1] S8388608x1
  bcast_S_S8388608x1 : S_.BroadcastsInDim S8388608x1 (![] : Fin 0 → Fin S8388608x1.rank)
  shapeCasts_S8388608x1_S8x1x1024x1024 : S8388608x1.ShapeCasts S8x1x1024x1024
  gather_S70789x3_S8x1024x1024x1_S8x1024x1024x3_3_0_n_n_0_3_13_wf : GatherDims.WF S70789x3 S8x1024x1024x1 S8x1024x1024x3 [3] [0] [] [0] [] 3 ![1, 3]
  gather_S285672x3_S8388608x3x1_S8388608x3x3_2_0_n_n_0_2_13_wf : GatherDims.WF S285672x3 S8388608x3x1 S8388608x3x3 [2] [0] [] [0] [] 2 ![1, 3]

variable [Facts₀]

def gather_S70789x3_S8x1024x1024x1_S8x1024x1024x3_3_0_n_n_0_3_13 : GatherDims S70789x3 S8x1024x1024x1 S8x1024x1024x3 where
  offsetDims := [3]
  collapsedSliceDims := [0]
  operandBatchingDims := []
  startIndicesBatchingDims := []
  startIndexMap := [0]
  indexVectorDim := 3
  sliceSizes := ![1, 3]
  wf := gather_S70789x3_S8x1024x1024x1_S8x1024x1024x3_3_0_n_n_0_3_13_wf
def gather_S285672x3_S8388608x3x1_S8388608x3x3_2_0_n_n_0_2_13 : GatherDims S285672x3 S8388608x3x1 S8388608x3x3 where
  offsetDims := [2]
  collapsedSliceDims := [0]
  operandBatchingDims := []
  startIndicesBatchingDims := []
  startIndexMap := [0]
  indexVectorDim := 2
  sliceSizes := ![1, 3]
  wf := gather_S285672x3_S8388608x3x1_S8388608x3x3_2_0_n_n_0_2_13_wf

class Facts : Prop extends Facts₀ where

variable [Facts]
-- ==== Proof.GatherRead.lean ====
/-
  The two colour gathers read at an index.

  The kernel looks a corner's colour up with a PAIR of start indices, (batch, vertex), into the table
  [8, 35709, 3]; the reference with ONE start index, a row of the table flattened to [285672, 3]. A
  `stablehlo.gather` reads every start index as a signed integer and clamps it so that the slice fits; the slice here
  is one row of three channels, so result element (…, ch) is the operand at (clamped start…, ch).
-/
import Idealize.ShloMosaic.Lib.ValueIdx

noncomputable section

namespace Cert.Blend

open Idealize.ShloMosaic Idealize.ShloMosaic.ValueIdx

section
variable {α : Type}

/-- On an axis the start index map names, the slice starts at the start index's component read where `siIdx`
    says, clamped. -/
theorem gather_start_eq {s si t : Shape} (d : GatherDims s si t) {w : Nat} (j : t.Idx) (idx : IVec si w) (a : Fin s.rank)
    (ha : a ∈ d.startIndexMap) (q : si.Idx)
    (hq : d.siIdx j ⟨d.startIndexMap.idxOf a, List.idxOf_lt_length_iff.2 ha⟩ = q) :
    d.start j idx a = min (idx q).toInt.toNat (s.size a - d.sliceSizes a) := by
  unfold GatherDims.start
  rw [dif_pos ha, hq]

/-- The colour table [batch, vertex, channel]. -/
abbrev STab : Shape := ⟨3, ![8, 35709, 3]⟩
/-- Per pixel and corner, the pair (batch, vertex). -/
abbrev SPair : Shape := ⟨5, ![8, 1024, 1024, 3, 2]⟩
/-- Per pixel and corner, the three channels. -/
abbrev SCorner : Shape := ⟨5, ![8, 1024, 1024, 3, 3]⟩

/-- The dimension numbers of `table[batch, vertex]`: both leading axes collapsed and indexed, the channel axis the
    one offset axis. -/
abbrev pairDims (wf : GatherDims.WF STab SPair SCorner [4] [0, 1] [] [0, 1] [] 4 ![1, 1, 3]) : GatherDims STab SPair SCorner where
  offsetDims := [4]
  collapsedSliceDims := [0, 1]
  operandBatchingDims := []
  startIndicesBatchingDims := []
  startIndexMap := [0, 1]
  indexVectorDim := 4
  sliceSizes := ![1, 1, 3]
  wf := wf

/-- The pair gather at (b, h, w, k, ch): the table at the clamped batch and vertex the pair at (b, h, w, k) names,
    channel ch. -/
theorem pair_gather_apply {wd : Nat} (wf : GatherDims.WF STab SPair SCorner [4] [0, 1] [] [0, 1] [] 4 ![1, 1, 3])
    (x : STab.Idx → α) (idx : IVec SPair wd) (b : Fin 8) (h w : Fin 1024) (k ch : Fin 3) :
    Host.gather (pairDims wf) x idx (ix5 b h w k ch)
      = x (ix3 ⟨min (idx (ix5 b h w k (0 : Fin 2))).toInt.toNat 7, by omega⟩
               ⟨min (idx (ix5 b h w k (1 : Fin 2))).toInt.toNat 35708, by omega⟩ ch) := by
  unfold Host.gather
  congr 1
  funext a
  refine Fin.ext ?_
  show (pairDims wf).start (ix5 b h w k ch) idx a + (pairDims wf).batchCoord (ix5 b h w k ch) a
    + (pairDims wf).offCoord (ix5 b h w k ch) a = _
  have hc0 : (0 : Fin 3) ∈ (pairDims wf).collapsedSliceDims := by
    show (0 : Fin 3) ∈ ([0, 1] : List (Fin 3)); decide
  have hc1 : (1 : Fin 3) ∈ (pairDims wf).collapsedSliceDims := by
    show (1 : Fin 3) ∈ ([0, 1] : List (Fin 3)); decide
  have hm0 : (0 : Fin 3) ∈ (pairDims wf).startIndexMap := hc0
  have hm1 : (1 : Fin 3) ∈ (pairDims wf).startIndexMap := hc1
  have hn2 : (2 : Fin 3) ∉ (pairDims wf).startIndexMap := by
    show (2 : Fin 3) ∉ ([0, 1] : List (Fin 3)); decide
  have hk2 : (2 : Fin 3) ∈ (pairDims wf).sKept :=
    (GatherDims.mem_sKept _ _).2 ⟨hn2, List.not_mem_nil⟩
  match a with
  | ⟨0, _⟩ =>
    show (pairDims wf).start (ix5 b h w k ch) idx (0 : Fin 3) + (pairDims wf).batchCoord (ix5 b h w k ch) (0 : Fin 3)
      + (pairDims wf).offCoord (ix5 b h w k ch) (0 : Fin 3) = min (idx (ix5 b h w k (0 : Fin 2))).toInt.toNat 7
    rw [GatherDims.batchCoord_eq_zero _ _ _ List.not_mem_nil, Nat.add_zero,
      GatherDims.offCoord_eq_zero _ _ _ (fun hm => ((GatherDims.mem_sKept _ _).mp hm).1 hc0), Nat.add_zero,
      gather_start_eq (pairDims wf) _ idx _ hm0 (ix5 b h w k (0 : Fin 2))
        (by funext c; refine Fin.ext ?_; match c with | ⟨0, _⟩ => rfl | ⟨1, _⟩ => rfl | ⟨2, _⟩ => rfl | ⟨3, _⟩ => rfl | ⟨4, _⟩ => rfl)]
    rfl
  | ⟨1, _⟩ =>
    show (pairDims wf).start (ix5 b h w k ch) idx (1 : Fin 3) + (pairDims wf).batchCoord (ix5 b h w k ch) (1 : Fin 3)
      + (pairDims wf).offCoord (ix5 b h w k ch) (1 : Fin 3) = min (idx (ix5 b h w k (1 : Fin 2))).toInt.toNat 35708
    rw [GatherDims.batchCoord_eq_zero _ _ _ List.not_mem_nil, Nat.add_zero,
      GatherDims.offCoord_eq_zero _ _ _ (fun hm => ((GatherDims.mem_sKept _ _).mp hm).1 hc1), Nat.add_zero,
      gather_start_eq (pairDims wf) _ idx _ hm1 (ix5 b h w k (1 : Fin 2))
        (by funext c; refine Fin.ext ?_; match c with | ⟨0, _⟩ => rfl | ⟨1, _⟩ => rfl | ⟨2, _⟩ => rfl | ⟨3, _⟩ => rfl | ⟨4, _⟩ => rfl)]
    rfl
  | ⟨2, _⟩ =>
    show (pairDims wf).start (ix5 b h w k ch) idx (2 : Fin 3) + (pairDims wf).batchCoord (ix5 b h w k ch) (2 : Fin 3)
      + (pairDims wf).offCoord (ix5 b h w k ch) (2 : Fin 3) = ch.val
    rw [GatherDims.batchCoord_eq_zero _ _ _ List.not_mem_nil, Nat.add_zero]
    unfold GatherDims.start GatherDims.offCoord
    rw [dif_neg hn2, dif_pos hk2, Nat.zero_add]
    rfl

/-- The colour table flattened: [batch · 35709 + vertex, channel]. -/
abbrev SFlat : Shape := ⟨2, ![285672, 3]⟩
/-- Per flattened pixel and corner, the one start index. -/
abbrev SRow : Shape := ⟨3, ![8388608, 3, 1]⟩
/-- Per flattened pixel and corner, the three channels. -/
abbrev SCornerF : Shape := ⟨3, ![8388608, 3, 3]⟩

/-- The dimension numbers of `flat[row]`: the row axis collapsed and indexed, the channel axis the one offset axis. -/
abbrev rowDims (wf : GatherDims.WF SFlat SRow SCornerF [2] [0] [] [0] [] 2 ![1, 3]) : GatherDims SFlat SRow SCornerF where
  offsetDims := [2]
  collapsedSliceDims := [0]
  operandBatchingDims := []
  startIndicesBatchingDims := []
  startIndexMap := [0]
  indexVectorDim := 2
  sliceSizes := ![1, 3]
  wf := wf

/-- The row gather at (p, k, ch): the flattened table at the clamped row the start index at (p, k) names, channel ch. -/
theorem row_gather_apply {wd : Nat} (wf : GatherDims.WF SFlat SRow SCornerF [2] [0] [] [0] [] 2 ![1, 3])
    (x : SFlat.Idx → α) (idx : IVec SRow wd) (p : Fin 8388608) (k ch : Fin 3) :
    Host.gather (rowDims wf) x idx (ix3 p k ch)
      = x (ix2 ⟨min (idx (ix3 p k (0 : Fin 1))).toInt.toNat 285671, by omega⟩ ch) := by
  unfold Host.gather
  congr 1
  funext a
  refine Fin.ext ?_
  show (rowDims wf).start (ix3 p k ch) idx a + (rowDims wf).batchCoord (ix3 p k ch) a
    + (rowDims wf).offCoord (ix3 p k ch) a = _
  have hc0 : (0 : Fin 2) ∈ (rowDims wf).collapsedSliceDims := by
    show (0 : Fin 2) ∈ ([0] : List (Fin 2)); decide
  have hm0 : (0 : Fin 2) ∈ (rowDims wf).startIndexMap := hc0
  have hn1 : (1 : Fin 2) ∉ (rowDims wf).startIndexMap := by
    show (1 : Fin 2) ∉ ([0] : List (Fin 2)); decide
  have hk1 : (1 : Fin 2) ∈ (rowDims wf).sKept :=
    (GatherDims.mem_sKept _ _).2 ⟨hn1, List.not_mem_nil⟩
  match a with
  | ⟨0, _⟩ =>
    show (rowDims wf).start (ix3 p k ch) idx (0 : Fin 2) + (rowDims wf).batchCoord (ix3 p k ch) (0 : Fin 2)
      + (rowDims wf).offCoord (ix3 p k ch) (0 : Fin 2) = min (idx (ix3 p k (0 : Fin 1))).toInt.toNat 285671
    rw [GatherDims.batchCoord_eq_zero _ _ _ List.not_mem_nil, Nat.add_zero,
      GatherDims.offCoord_eq_zero _ _ _ (fun hm => ((GatherDims.mem_sKept _ _).mp hm).1 hc0), Nat.add_zero,
      gather_start_eq (rowDims wf) _ idx _ hm0 (ix3 p k (0 : Fin 1))
        (by funext c; refine Fin.ext ?_; match c with | ⟨0, _⟩ => rfl | ⟨1, _⟩ => rfl | ⟨2, _⟩ => rfl)]
    rfl
  | ⟨1, _⟩ =>
    show (rowDims wf).start (ix3 p k ch) idx (1 : Fin 2) + (rowDims wf).batchCoord (ix3 p k ch) (1 : Fin 2)
      + (rowDims wf).offCoord (ix3 p k ch) (1 : Fin 2) = ch.val
    rw [GatherDims.batchCoord_eq_zero _ _ _ List.not_mem_nil, Nat.add_zero]
    unfold GatherDims.start GatherDims.offCoord
    rw [dif_neg hn1, dif_pos hk1, Nat.zero_add]
    rfl

end

end Cert.Blend

end
-- ==== Proof.Blend.lean ====
/-
  The blended image and the alpha channel as functions of the arguments, index by index, on the extended reals,
  and the two laws that join the kernel's spelling with the reference's.

  A pixel (b, h, w) carries three vertex ids `vid (b,h,w,k)`, k = 0,1,2 (the corners of its triangle), and three
  barycentric weights `bary (b,h,w,k)`. Corner k has the colour `col (b, row, ch)` where `row` is the vertex id read
  as a signed integer and clamped into the table's 35709 rows. Channel ch of the image at the pixel is
  clip₀¹ (Σₖ colourₖ(ch) · baryₖ), the alpha is clip₀¹ (2 · Σₖ baryₖ).
-/
import Idealize.ShloMosaic.PureOps.Ideal.Laws
import Idealize.ShloMosaic.Lib.ValueIdx

noncomputable section

namespace Cert.Blend

open Idealize.ShloMosaic Idealize.ShloMosaic.ValueIdx

/-- Per-pixel triples: [batch, row, column, corner]. -/
abbrev SPix : Shape := ⟨4, ![8, 1024, 1024, 3]⟩
/-- The colour table: [batch, vertex, channel]. -/
abbrev SCol : Shape := ⟨3, ![8, 35709, 3]⟩
/-- The image: [batch, channel, row, column]. -/
abbrev SImg : Shape := ⟨4, ![8, 3, 1024, 1024]⟩
/-- The alpha channel: [batch, 1, row, column]. -/
abbrev SAlpha : Shape := ⟨4, ![8, 1, 1024, 1024]⟩

/-- The row of the colour table a vertex id names: the id read signed, clamped into the table. -/
def vrow (v : BitVec 32) : Fin 35709 := ⟨min v.toInt.toNat 35708, by omega⟩

/-- The weighted sum of three corners, in the order the kernel adds them. -/
def blend3 (c x : Fin 3 → EReal) : EReal := (c 0 * x 0 + c 1 * x 1) + c 2 * x 2

/-- Clipping into [0, 1]: the maximum with 0, then the minimum with 1. -/
def clip01 (x : EReal) : EReal :=
  min (Ideal.ofBits .f32 0x3F800000#32) (max (Ideal.ofBits .f32 0x00000000#32) x)

/-- Channel `ch` of the image at pixel (b, h, w). -/
def imageAt (vid : SPix.Idx → BitVec 32) (col : SCol.Idx → EReal) (bary : SPix.Idx → EReal)
    (b : Fin 8) (ch : Fin 3) (h w : Fin 1024) : EReal :=
  clip01 (blend3 (fun k => col (ix3 b (vrow (vid (ix4 b h w k))) ch)) (fun k => bary (ix4 b h w k)))

/-- The alpha channel at pixel (b, h, w). -/
def alphaAt (bary : SPix.Idx → EReal) (b : Fin 8) (h w : Fin 1024) : EReal :=
  clip01 (Ideal.ofBits .f32 0x40000000#32 * ((bary (ix4 b h w 0) + bary (ix4 b h w 1)) + bary (ix4 b h w 2)))

/-- The image as an array. -/
def image (vid : SPix.Idx → BitVec 32) (col : SCol.Idx → EReal) (bary : SPix.Idx → EReal) : SImg.Idx → EReal :=
  fun i => imageAt vid col bary (i 0) (i 1) (i 2) (i 3)

/-- The alpha channel as an array. -/
def alpha (bary : SPix.Idx → EReal) : SAlpha.Idx → EReal :=
  fun i => alphaAt bary (i 0) (i 2) (i 3)

/-- The pattern of 2.0 denotes the real number 2. -/
theorem two_eq : Ideal.ofBits .f32 0x40000000#32 = ((2 : ℝ) : EReal) := by
  simp [Ideal.ofBits, Ideal.ieee]
  rw [← EReal.coe_mul]
  norm_num

/-- Three terms added left to right are zero plus their sum over the three corners: addition on the extended reals is
    commutative and associative, so no finiteness is needed. -/
theorem blend3_eq_sum (c x : Fin 3 → EReal) :
    blend3 c x = Ideal.ofBits .f32 0x00000000#32 + ∑ k : Fin 3, c k * x k := by
  rw [Ideal.ofBits_zero_f32, zero_add, Fin.sum_univ_three]
  rfl

/-- Twice a sum of three is zero plus the sum of the three doubled: multiplication by a non-negative real
    distributes over addition on all of the extended reals. -/
theorem two_mul_sum (x : Fin 3 → EReal) :
    Ideal.ofBits .f32 0x40000000#32 * ((x 0 + x 1) + x 2)
      = Ideal.ofBits .f32 0x00000000#32 + ∑ k : Fin 3, Ideal.ofBits .f32 0x40000000#32 * x k := by
  have h0 : (0 : EReal) ≤ Ideal.ofBits .f32 0x40000000#32 := by rw [two_eq]; exact_mod_cast (by norm_num : (0 : ℝ) ≤ 2)
  have ht : Ideal.ofBits .f32 0x40000000#32 ≠ ⊤ := by rw [two_eq]; exact EReal.coe_ne_top 2
  rw [Ideal.ofBits_zero_f32, zero_add, Fin.sum_univ_three,
    EReal.left_distrib_of_nonneg_of_ne_top h0 ht, EReal.left_distrib_of_nonneg_of_ne_top h0 ht]

end Cert.Blend

end
-- ==== Proof.Words.lean ====
/-
  Integer words: a vertex id in the table's range is its own row, negative-index wrapping leaves it alone, and the
  reference's flattened row `batch · 35709 + vertex` neither wraps nor is clamped.
-/
import Idealize.ShloMosaic.Lib.Affine
import Idealize.ShloMosaic.Lib.ValueIdx
import proofs.«161789_j56401510531599_1_alg».proof.Proof.Blend

noncomputable section

namespace Cert.Blend

open Idealize.ShloMosaic Idealize.ShloMosaic.ValueIdx

/-- A signed word between 0 and 35709 is below 35709 as a natural number, and its signed and unsigned readings agree. -/
theorem toNat_of_range (v : BitVec 32) (h0 : 0 ≤ v.toInt) (h1 : v.toInt < 35709) :
    v.toNat < 35709 ∧ v.toInt = (v.toNat : Int) := by
  have h := BitVec.toInt_eq_toNat_cond v
  have hl := v.isLt
  split_ifs at h <;> omega

/-- The row a vertex id in range names is the id itself. -/
theorem vrow_val (v : BitVec 32) (h0 : 0 ≤ v.toInt) (h1 : v.toInt < 35709) : (vrow v).val = v.toNat := by
  obtain ⟨hn, hi⟩ := toNat_of_range v h0 h1
  show min v.toInt.toNat 35708 = v.toNat
  omega

/-- Wrapping a negative index by the axis length (`x < 0 ? x + n : x`) leaves a non-negative word as it is. -/
theorem wrap_nonneg (v n : BitVec 32) (h0 : 0 ≤ v.toInt) :
    Scalar.select (IntOp.cmpi .slt v 0#32) (IntOp.addi v n) v = v := by
  have hc : IntOp.cmpi .slt v 0#32 = 0#1 := eq_zero_of_ne_one (fun h1 => by
    have := IntOp.cmpi_slt.1 h1
    rw [show (0#32 : BitVec 32).toInt = 0 from by decide] at this
    omega)
  rw [hc, select_zero]

/-- The batch number, wrapped and clamped into the table's 8 batches, is the batch number. -/
theorem batch_row : ∀ b : Fin 8,
    min (Scalar.select (IntOp.cmpi .slt (BitVec.ofNat 32 b.val) 0#32) (IntOp.addi (BitVec.ofNat 32 b.val) 8#32)
      (BitVec.ofNat 32 b.val)).toInt.toNat 7 = b.val := by
  decide

/-- The flattened row of vertex `v` of batch `n`: `v + n · 35709`, wrapped and clamped into the 285672 rows of the
    flattened table, is `n · 35709 + v` — the sum stays below 285672, so nothing wraps and nothing is clamped. -/
theorem flat_row (v : BitVec 32) (n : Nat) (hn : n < 8) (h0 : 0 ≤ v.toInt) (h1 : v.toInt < 35709) :
    min (Scalar.select (IntOp.cmpi .slt (IntOp.addi v (IntOp.muli (BitVec.ofNat 32 n) 35709#32)) 0#32)
          (IntOp.addi (IntOp.addi v (IntOp.muli (BitVec.ofNat 32 n) 35709#32)) 285672#32)
          (IntOp.addi v (IntOp.muli (BitVec.ofNat 32 n) 35709#32))).toInt.toNat 285671
      = n * 35709 + (vrow v).val := by
  obtain ⟨hv, hi⟩ := toNat_of_range v h0 h1
  rw [vrow_val v h0 h1]
  generalize hf : IntOp.addi v (IntOp.muli (BitVec.ofNat 32 n) 35709#32) = f
  have hfn : f.toNat = v.toNat + n * 35709 := by
    rw [← hf]
    unfold IntOp.addi IntOp.muli
    rw [BitVec.toNat_add, BitVec.toNat_mul, BitVec.toNat_ofNat, BitVec.toNat_ofNat]
    omega
  have hfi : f.toInt = (f.toNat : Int) := by
    have h := BitVec.toInt_eq_toNat_cond f
    split_ifs at h <;> omega
  rw [wrap_nonneg f _ (by omega), hfi]
  omega

end Cert.Blend

end
-- ==== Proof.KernelHost.lean ====
/-
  What the kernel's two input arrays hold when the region is entered, read at an index.

  Before the region the host computes, per pixel and corner, the vertex id `vids` (the pixel's triangle looked up in
  the triangle table), pairs it with the pixel's batch number, looks the pair up in the colour table, and moves the
  (corner, channel) axes in front of the pixel axes as ONE axis of 9: entry (b, 3k + ch, h, w) of the corner array
  is the colour of corner k of pixel (b, h, w), channel ch. The weights array is the barycentric argument with its
  corner axis moved in front of the pixel axes.
-/
import proofs.«161789_j56401510531599_1_alg».proof.Proof.Gen.KernelIdeal.Frame
import proofs.«161789_j56401510531599_1_alg».proof.Proof.GatherRead
import proofs.«161789_j56401510531599_1_alg».proof.Proof.Words
import Idealize.ShloMosaic.Lib.Pipeline.Value
import Idealize.ShloMosaic.Lib.StableHlo.Run
import Idealize.ShloMosaic.Lib.IdealHost

noncomputable section

namespace Cert.KernelIdeal.Prelude

open Cert.KernelIdeal Cert.KernelIdeal.Gen Idealize.ShloMosaic Idealize.ShloMosaic.TcCoe
open Idealize.SL.Sem Idealize.ShloMosaic.StableHlo Idealize.ShloMosaic.ValueIdx Cert.Blend

/-- The vertex ids per pixel and corner: the pixel's triangle id (a negative one wrapped by the table's length), looked
    up in the triangle table. -/
def vids (x0 : (⟨S8x1024x1024, .i32⟩ : BufTy).Contents (Elt Ideal)) (x3 : (⟨S70789x3, .i32⟩ : BufTy).Contents (Elt Ideal)) :
    (⟨S8x1024x1024x3, .i32⟩ : BufTy).Contents (Elt Ideal) :=
  Host.gather gather_S70789x3_S8x1024x1024x1_S8x1024x1024x3_3_0_n_n_0_3_13 x3
    (broadcastInDim S8x1024x1024x1 ![0, 1, 2] bcast_S8x1024x1024_S8x1024x1024x1_0_1_2
      (select (cmpi .slt x0 (broadcastInDim S8x1024x1024 ![] bcast_S_S8x1024x1024 (constantI S_ 32 0#32)))
        (addi x0 (broadcastInDim S8x1024x1024 ![] bcast_S_S8x1024x1024 (constantI S_ 32 70789#32))) x0))

/-- The batch numbers 0 … 7 as a column, wrapped like any index. -/
def batchCol : (⟨S8x1x1x1, .i32⟩ : BufTy).Contents (Elt Ideal) :=
  select (cmpi .slt (broadcastInDim S8x1x1x1 ![0] bcast_S8_S8x1x1x1_0 (iotaInDim S8 32 0))
      (broadcastInDim S8x1x1x1 ![] bcast_S_S8x1x1x1 (constantI S_ 32 0#32)))
    (addi (broadcastInDim S8x1x1x1 ![0] bcast_S8_S8x1x1x1_0 (iotaInDim S8 32 0))
      (broadcastInDim S8x1x1x1 ![] bcast_S_S8x1x1x1 (constantI S_ 32 8#32)))
    (broadcastInDim S8x1x1x1 ![0] bcast_S8_S8x1x1x1_0 (iotaInDim S8 32 0))

/-- The vertex ids, a negative one wrapped by the colour table's length. -/
def vertCol (v : (⟨S8x1024x1024x3, .i32⟩ : BufTy).Contents (Elt Ideal)) : (⟨S8x1024x1024x3, .i32⟩ : BufTy).Contents (Elt Ideal) :=
  select (cmpi .slt v (broadcastInDim S8x1024x1024x3 ![] bcast_S_S8x1024x1024x3 (constantI S_ 32 0#32)))
    (addi v (broadcastInDim S8x1024x1024x3 ![] bcast_S_S8x1024x1024x3 (constantI S_ 32 35709#32))) v

/-- Per pixel and corner, the pair (batch, vertex). -/
def pairs (v : (⟨S8x1024x1024x3, .i32⟩ : BufTy).Contents (Elt Ideal)) : (⟨S8x1024x1024x3x2, .i32⟩ : BufTy).Contents (Elt Ideal) :=
  concatenate S8x1024x1024x3x2 4
    [⟨S8x1024x1024x3x1, broadcastInDim S8x1024x1024x3x1 ![0, 1, 2, 3] bcast_S8x1024x1024x3_S8x1024x1024x3x1_0_1_2_3
        (broadcastInDim S8x1024x1024x3 ![0, 1, 2, 3] bcast_S8x1x1x1_S8x1024x1024x3_0_1_2_3 batchCol)⟩,
     ⟨S8x1024x1024x3x1, broadcastInDim S8x1024x1024x3x1 ![0, 1, 2, 3] bcast_S8x1024x1024x3_S8x1024x1024x3x1_0_1_2_3 (vertCol v)⟩]
    concatenates_S8x1024x1024x3x1_S8x1024x1024x3x1_S8x1024x1024x3x2_d4

/-- The corner colours laid out for the kernel: [batch, 3·corner + channel, row, column]. -/
def corners (x2 : (⟨S8x35709x3, .f32⟩ : BufTy).Contents (Elt Ideal)) (v : (⟨S8x1024x1024x3, .i32⟩ : BufTy).Contents (Elt Ideal)) :
    (⟨S8x9x1024x1024, .f32⟩ : BufTy).Contents (Elt Ideal) :=
  shapeCast S8x9x1024x1024
    (transpose S8x3x3x1024x1024 [0, 3, 4, 1, 2]
      (Host.gather gather_S8x35709x3_S8x1024x1024x3x2_S8x1024x1024x3x3_4_01_n_n_01_4_113 x2 (pairs v))
      transposes_S8x1024x1024x3x3_S8x3x3x1024x1024_0_3_4_1_2)
    shapeCasts_S8x3x3x1024x1024_S8x9x1024x1024

/-! ## Read at an index -/

/-- An index wrapped by an axis length, at an index: the word-level select of the elements. -/
theorem wrap_apply {s : Shape} (x c n : IVec s 32) (i : s.Idx) :
    select (cmpi .slt x c) (addi x n) x i = Scalar.select (IntOp.cmpi .slt (x i) (c i)) (IntOp.addi (x i) (n i)) (x i) := rfl

/-- The batch column at batch `b`: the batch number, wrapped. -/
theorem batchCol_apply (b : Fin 8) :
    batchCol (ix4 b (0 : Fin 1) (0 : Fin 1) (0 : Fin 1))
      = Scalar.select (IntOp.cmpi .slt (BitVec.ofNat 32 b.val) 0#32) (IntOp.addi (BitVec.ofNat 32 b.val) 8#32)
          (BitVec.ofNat 32 b.val) := by
  have e8 : broadcastInDim S8x1x1x1 ![0] bcast_S8_S8x1x1x1_0 (iotaInDim S8 32 0) (ix4 b (0 : Fin 1) (0 : Fin 1) (0 : Fin 1))
      = BitVec.ofNat 32 b.val :=
    (broadcastInDim_apply _ bcast_S8_S8x1x1x1_0 (iotaInDim S8 32 0) (ix4 b (0 : Fin 1) (0 : Fin 1) (0 : Fin 1)) (ix1 b)
      (fun a => match a with
        | ⟨0, _⟩ => by show b.val = if (8 : Nat) = 1 then 0 else b.val; rw [if_neg (by decide)])).trans rfl
  unfold batchCol
  refine (wrap_apply _ _ _ _).trans ?_
  rw [e8, broadcastInDim_scalar_apply, broadcastInDim_scalar_apply]
  rfl

/-- The vertex column at an index: the vertex id, wrapped. -/
theorem vertCol_apply (v : (⟨S8x1024x1024x3, .i32⟩ : BufTy).Contents (Elt Ideal)) (i : S8x1024x1024x3.Idx) :
    vertCol v i = Scalar.select (IntOp.cmpi .slt (v i) 0#32) (IntOp.addi (v i) 35709#32) (v i) := by
  unfold vertCol
  refine (wrap_apply _ _ _ _).trans ?_
  rw [broadcastInDim_scalar_apply, broadcastInDim_scalar_apply]
  rfl

/-- The first component of the pair at (b, h, w, k) is the batch column at `b`. -/
theorem pairs_fst (v : (⟨S8x1024x1024x3, .i32⟩ : BufTy).Contents (Elt Ideal)) (b : Fin 8) (h w : Fin 1024) (k : Fin 3) :
    pairs v (ix5 b h w k (0 : Fin 2)) = batchCol (ix4 b (0 : Fin 1) (0 : Fin 1) (0 : Fin 1)) := by
  unfold pairs
  refine (concatenate_pair_apply_left (t := S8x1024x1024x3x2) (s₁ := S8x1024x1024x3x1) (s₂ := S8x1024x1024x3x1) (4 : Fin 5) _ _ _ (ix5 b h w k (0 : Fin 2)) rfl (ix5 b h w k (0 : Fin 1))
    (fun a => match a with | ⟨0, _⟩ => rfl | ⟨1, _⟩ => rfl | ⟨2, _⟩ => rfl | ⟨3, _⟩ => rfl | ⟨4, _⟩ => rfl)).trans ?_
  refine (broadcastInDim_apply _ bcast_S8x1024x1024x3_S8x1024x1024x3x1_0_1_2_3 _ (ix5 b h w k (0 : Fin 1)) (ix4 b h w k)
    (fun a => match a with
      | ⟨0, _⟩ => by show b.val = if (8 : Nat) = 1 then 0 else b.val; rw [if_neg (by decide)]
      | ⟨1, _⟩ => by show h.val = if (1024 : Nat) = 1 then 0 else h.val; rw [if_neg (by decide)]
      | ⟨2, _⟩ => by show w.val = if (1024 : Nat) = 1 then 0 else w.val; rw [if_neg (by decide)]
      | ⟨3, _⟩ => by show k.val = if (3 : Nat) = 1 then 0 else k.val; rw [if_neg (by decide)])).trans ?_
  exact broadcastInDim_apply _ bcast_S8x1x1x1_S8x1024x1024x3_0_1_2_3 _ (ix4 b h w k) (ix4 b (0 : Fin 1) (0 : Fin 1) (0 : Fin 1))
    (fun a => match a with
      | ⟨0, _⟩ => by show b.val = if (8 : Nat) = 1 then 0 else b.val; rw [if_neg (by decide)]
      | ⟨1, _⟩ => by show 0 = if (1 : Nat) = 1 then 0 else h.val; rw [if_pos rfl]
      | ⟨2, _⟩ => by show 0 = if (1 : Nat) = 1 then 0 else w.val; rw [if_pos rfl]
      | ⟨3, _⟩ => by show 0 = if (1 : Nat) = 1 then 0 else k.val; rw [if_pos rfl])

/-- The second component of the pair at (b, h, w, k) is the vertex column there. -/
theorem pairs_snd (v : (⟨S8x1024x1024x3, .i32⟩ : BufTy).Contents (Elt Ideal)) (b : Fin 8) (h w : Fin 1024) (k : Fin 3) :
    pairs v (ix5 b h w k (1 : Fin 2)) = vertCol v (ix4 b h w k) := by
  unfold pairs
  refine (concatenate_pair_apply_right (t := S8x1024x1024x3x2) (s₁ := S8x1024x1024x3x1) (s₂ := S8x1024x1024x3x1) (4 : Fin 5) _ _ _ (ix5 b h w k (1 : Fin 2)) rfl rfl (ix5 b h w k (0 : Fin 1))
    (fun a hne => match a, hne with
      | ⟨0, _⟩, _ => rfl | ⟨1, _⟩, _ => rfl | ⟨2, _⟩, _ => rfl | ⟨3, _⟩, _ => rfl
      | ⟨4, _⟩, hne => (hne (Fin.ext rfl)).elim) rfl).trans ?_
  exact broadcastInDim_apply _ bcast_S8x1024x1024x3_S8x1024x1024x3x1_0_1_2_3 _ (ix5 b h w k (0 : Fin 1)) (ix4 b h w k)
    (fun a => match a with
      | ⟨0, _⟩ => by show b.val = if (8 : Nat) = 1 then 0 else b.val; rw [if_neg (by decide)]
      | ⟨1, _⟩ => by show h.val = if (1024 : Nat) = 1 then 0 else h.val; rw [if_neg (by decide)]
      | ⟨2, _⟩ => by show w.val = if (1024 : Nat) = 1 then 0 else w.val; rw [if_neg (by decide)]
      | ⟨3, _⟩ => by show k.val = if (3 : Nat) = 1 then 0 else k.val; rw [if_neg (by decide)])

/-- THE CORNER ARRAY AT AN INDEX: entry (b, 3k + ch, h, w) is the colour table at batch b, at the row the vertex id of
    corner k of pixel (b, h, w) names, channel ch — given the vertex ids are non-negative (a negative one would be
    wrapped first). -/
theorem corners_apply (x2 : (⟨S8x35709x3, .f32⟩ : BufTy).Contents (Elt Ideal)) (v : (⟨S8x1024x1024x3, .i32⟩ : BufTy).Contents (Elt Ideal))
    (hv : ∀ i, 0 ≤ (v i).toInt) (b : Fin 8) (k ch : Fin 3) (h w : Fin 1024) :
    corners x2 v (ix4 b (⟨k.val * 3 + ch.val, by omega⟩ : Fin 9) h w) = x2 (ix3 b (vrow (v (ix4 b h w k))) ch) := by
  unfold corners
  refine (shapeCast_apply _ _ (ix4 b (⟨k.val * 3 + ch.val, by omega⟩ : Fin 9) h w) (ix5 b k ch h w)
    (by rw [Shape.rowMajor_val_five, Shape.rowMajor_val_four]
        show (((b.val * 3 + k.val) * 3 + ch.val) * 1024 + h.val) * 1024 + w.val
          = ((b.val * 9 + (k.val * 3 + ch.val)) * 1024 + h.val) * 1024 + w.val
        omega)).trans ?_
  refine (transpose_apply [0, 3, 4, 1, 2] _ _ (ix5 b k ch h w) (ix5 b h w k ch)
    (fun a => match a with | ⟨0, _⟩ => rfl | ⟨1, _⟩ => rfl | ⟨2, _⟩ => rfl | ⟨3, _⟩ => rfl | ⟨4, _⟩ => rfl)).trans ?_
  refine (pair_gather_apply gather_S8x35709x3_S8x1024x1024x3x2_S8x1024x1024x3x3_4_01_n_n_01_4_113_wf x2 (pairs v) b h w k ch).trans ?_
  refine congrArg x2 (funext fun a => Fin.ext ?_)
  match a with
  | ⟨0, _⟩ =>
    show min (pairs v (ix5 b h w k (0 : Fin 2))).toInt.toNat 7 = b.val
    rw [pairs_fst, batchCol_apply]
    exact batch_row b
  | ⟨1, _⟩ =>
    show min (pairs v (ix5 b h w k (1 : Fin 2))).toInt.toNat 35708 = (vrow (v (ix4 b h w k))).val
    rw [pairs_snd, vertCol_apply, wrap_nonneg _ _ (hv _)]
    rfl
  | ⟨2, _⟩ => rfl

/-- THE WEIGHTS ARRAY AT AN INDEX: entry (b, k, h, w) is the barycentric weight of corner k of pixel (b, h, w). -/
theorem bary_apply (x1 : (⟨S8x1024x1024x3, .f32⟩ : BufTy).Contents (Elt Ideal)) (b : Fin 8) (k : Fin 3) (h w : Fin 1024) :
    transpose S8x3x1024x1024 [0, 3, 1, 2] x1 transposes_S8x1024x1024x3_S8x3x1024x1024_0_3_1_2 (ix4 b k h w) = x1 (ix4 b h w k) :=
  transpose_apply [0, 3, 1, 2] x1 _ (ix4 b k h w) (ix4 b h w k)
    (fun a => match a with | ⟨0, _⟩ => rfl | ⟨1, _⟩ => rfl | ⟨2, _⟩ => rfl | ⟨3, _⟩ => rfl)

variable (m : (ℓ : Loc nD τ sig) → Buf (Elt Ideal) ℓ)

/-- The corner array as the region finds it. -/
theorem V_corners (c : Dev nD) :
    V m c main_v25 = corners (m ((c : Thread nD τ).loc main_arg2))
      (vids (m ((c : Thread nD τ).loc main_arg0)) (m ((c : Thread nD τ).loc main_arg3))) := by
  dsimp only [V, hostOps0]
  after_results_simp <;> rfl

/-- The weights array as the region finds it. -/
theorem V_bary (c : Dev nD) :
    V m c main_v26 = transpose S8x3x1024x1024 [0, 3, 1, 2] (m ((c : Thread nD τ).loc main_arg1))
      transposes_S8x1024x1024x3_S8x3x1024x1024_0_3_1_2 := by
  dsimp only [V, hostOps0]
  after_results_simp <;> rfl

end Cert.KernelIdeal.Prelude

end
-- ==== Proof.KernelBody.lean ====
/-
  What the kernel body leaves in its two output blocks, read at an index.

  The body loads a block of corner colours [1, 9, 128, 1024] and a block of weights [1, 3, 128, 1024], slices the
  nine colour planes and the three weight planes out of them, forms per channel ch the sum
  (plane ch · w₀ + plane (3 + ch) · w₁) + plane (6 + ch) · w₂, stacks the three channels, and clips into [0, 1].
-/
import proofs.«161789_j56401510531599_1_alg».proof.Proof.Gen.KernelIdeal.Value
import proofs.«161789_j56401510531599_1_alg».proof.Proof.Blend
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.TcCoe
open Idealize.ShloMosaic.ValueIdx Cert.Blend

/-- Plane `off 0` of the colour block, as a [128, 1024] matrix. -/
def plane9 (x0 : Vec Ideal S1x9x128x1024 .f32) (off : Fin 3 → Nat) (hs : S9x128x1024.Slices off S1x128x1024) :
    FVec Ideal S128x1024 .f32 :=
  shapeCast S128x1024
    (extractStridedSlice S1x128x1024 off (shapeCast S9x128x1024 x0 shapeCasts_S1x9x128x1024_S9x128x1024) hs)
    shapeCasts_S1x128x1024_S128x1024

/-- Plane `off 0` of the weight block, as a [128, 1024] matrix. -/
def plane3 (x1 : Vec Ideal S1x3x128x1024 .f32) (off : Fin 3 → Nat) (hs : S3x128x1024.Slices off S1x128x1024) :
    FVec Ideal S128x1024 .f32 :=
  shapeCast S128x1024
    (extractStridedSlice S1x128x1024 off (shapeCast S3x128x1024 x1 shapeCasts_S1x3x128x1024_S3x128x1024) hs)
    shapeCasts_S1x128x1024_S128x1024

/-- A colour plane at (r, w) is the block at (0, plane, r, w). -/
theorem plane9_apply (x0 : Vec Ideal S1x9x128x1024 .f32) (off : Fin 3 → Nat) (hs : S9x128x1024.Slices off S1x128x1024)
    (o : Fin 9) (h0 : off 0 = o.val) (h1 : off 1 = 0) (h2 : off 2 = 0) (r : Fin 128) (w : Fin 1024) :
    plane9 x0 off hs (ix2 r w) = x0 (ix4 (0 : Fin 1) o r w) := by
  unfold plane9
  refine (shapeCast_apply _ _ (ix2 r w) (ix3 (0 : Fin 1) r w)
    (by rw [Shape.rowMajor_val_three, Shape.rowMajor_val_two]
        show (0 * 128 + r.val) * 1024 + w.val = r.val * 1024 + w.val; omega)).trans ?_
  refine (extractStridedSlice_apply off _ hs (ix3 (0 : Fin 1) r w) (ix3 o r w)
    (fun a => match a with
      | ⟨0, _⟩ => by show o.val = off 0 + 0; omega
      | ⟨1, _⟩ => by show r.val = off 1 + r.val; omega
      | ⟨2, _⟩ => by show w.val = off 2 + w.val; omega)).trans ?_
  exact shapeCast_apply _ _ (ix3 o r w) (ix4 (0 : Fin 1) o r w)
    (by rw [Shape.rowMajor_val_four, Shape.rowMajor_val_three]
        show ((0 * 9 + o.val) * 128 + r.val) * 1024 + w.val = (o.val * 128 + r.val) * 1024 + w.val; omega)

/-- A weight plane at (r, w) is the block at (0, plane, r, w). -/
theorem plane3_apply (x1 : Vec Ideal S1x3x128x1024 .f32) (off : Fin 3 → Nat) (hs : S3x128x1024.Slices off S1x128x1024)
    (o : Fin 3) (h0 : off 0 = o.val) (h1 : off 1 = 0) (h2 : off 2 = 0) (r : Fin 128) (w : Fin 1024) :
    plane3 x1 off hs (ix2 r w) = x1 (ix4 (0 : Fin 1) o r w) := by
  unfold plane3
  refine (shapeCast_apply _ _ (ix2 r w) (ix3 (0 : Fin 1) r w)
    (by rw [Shape.rowMajor_val_three, Shape.rowMajor_val_two]
        show (0 * 128 + r.val) * 1024 + w.val = r.val * 1024 + w.val; omega)).trans ?_
  refine (extractStridedSlice_apply off _ hs (ix3 (0 : Fin 1) r w) (ix3 o r w)
    (fun a => match a with
      | ⟨0, _⟩ => by show o.val = off 0 + 0; omega
      | ⟨1, _⟩ => by show r.val = off 1 + r.val; omega
      | ⟨2, _⟩ => by show w.val = off 2 + w.val; omega)).trans ?_
  exact shapeCast_apply _ _ (ix3 o r w) (ix4 (0 : Fin 1) o r w)
    (by rw [Shape.rowMajor_val_four, Shape.rowMajor_val_three]
        show ((0 * 3 + o.val) * 128 + r.val) * 1024 + w.val = (o.val * 128 + r.val) * 1024 + w.val; omega)

/-- One channel of the blend as a [128, 1024] matrix: three colour planes against the three weight planes. -/
def chanSum (x0 : Vec Ideal S1x9x128x1024 .f32) (x1 : Vec Ideal S1x3x128x1024 .f32) (oA oB oC : Fin 3 → Nat)
    (hA : S9x128x1024.Slices oA S1x128x1024) (hB : S9x128x1024.Slices oB S1x128x1024) (hC : S9x128x1024.Slices oC S1x128x1024) :
    FVec Ideal S128x1024 .f32 :=
  addf (addf (mulf (plane9 x0 oA hA) (plane3 x1 ![0, 0, 0] slices_S3x128x1024_o0_0_0_S1x128x1024))
             (mulf (plane9 x0 oB hB) (plane3 x1 ![1, 0, 0] slices_S3x128x1024_o1_0_0_S1x128x1024)))
       (mulf (plane9 x0 oC hC) (plane3 x1 ![2, 0, 0] slices_S3x128x1024_o2_0_0_S1x128x1024))

/-- A channel's matrix at (r, w): the weighted sum of the three corners' colours of that channel. -/
theorem chanSum_apply (x0 : Vec Ideal S1x9x128x1024 .f32) (x1 : Vec Ideal S1x3x128x1024 .f32) (oA oB oC : Fin 3 → Nat)
    (hA : S9x128x1024.Slices oA S1x128x1024) (hB : S9x128x1024.Slices oB S1x128x1024) (hC : S9x128x1024.Slices oC S1x128x1024)
    (ch : Fin 3) (a0 : oA 0 = 0 * 3 + ch.val) (a1 : oA 1 = 0) (a2 : oA 2 = 0) (b0 : oB 0 = 1 * 3 + ch.val) (b1 : oB 1 = 0) (b2 : oB 2 = 0)
    (c0 : oC 0 = 2 * 3 + ch.val) (c1 : oC 1 = 0) (c2 : oC 2 = 0) (r : Fin 128) (w : Fin 1024) :
    chanSum x0 x1 oA oB oC hA hB hC (ix2 r w)
      = blend3 (fun k => x0 (ix4 (0 : Fin 1) (⟨k.val * 3 + ch.val, by omega⟩ : Fin 9) r w)) (fun k => x1 (ix4 (0 : Fin 1) k r w)) := by
  show (plane9 x0 oA hA (ix2 r w) * plane3 x1 ![0, 0, 0] slices_S3x128x1024_o0_0_0_S1x128x1024 (ix2 r w)
        + plane9 x0 oB hB (ix2 r w) * plane3 x1 ![1, 0, 0] slices_S3x128x1024_o1_0_0_S1x128x1024 (ix2 r w))
      + plane9 x0 oC hC (ix2 r w) * plane3 x1 ![2, 0, 0] slices_S3x128x1024_o2_0_0_S1x128x1024 (ix2 r w) = _
  rw [plane9_apply x0 oA hA ⟨0 * 3 + ch.val, by omega⟩ a0 a1 a2, plane9_apply x0 oB hB ⟨1 * 3 + ch.val, by omega⟩ b0 b1 b2,
    plane9_apply x0 oC hC ⟨2 * 3 + ch.val, by omega⟩ c0 c1 c2,
    plane3_apply x1 ![0, 0, 0] _ (0 : Fin 3) rfl rfl rfl, plane3_apply x1 ![1, 0, 0] _ (1 : Fin 3) rfl rfl rfl,
    plane3_apply x1 ![2, 0, 0] _ (2 : Fin 3) rfl rfl rfl]
  rfl

/-- The body's stacked channels: the three channel matrices, each as one plane, laid along a new leading axis. -/
theorem stacked_eq (x0 : Vec Ideal S1x9x128x1024 .f32) (x1 : Vec Ideal S1x3x128x1024 .f32) :
    k0_pay7 x0 x1 = concatenate S3x128x1024 0
      [⟨S1x128x1024, shapeCast S1x128x1024 (chanSum x0 x1 ![0, 0, 0] ![3, 0, 0] ![6, 0, 0]
          slices_S9x128x1024_o0_0_0_S1x128x1024 slices_S9x128x1024_o3_0_0_S1x128x1024 slices_S9x128x1024_o6_0_0_S1x128x1024)
          shapeCasts_S128x1024_S1x128x1024⟩,
       ⟨S1x128x1024, shapeCast S1x128x1024 (chanSum x0 x1 ![1, 0, 0] ![4, 0, 0] ![7, 0, 0]
          slices_S9x128x1024_o1_0_0_S1x128x1024 slices_S9x128x1024_o4_0_0_S1x128x1024 slices_S9x128x1024_o7_0_0_S1x128x1024)
          shapeCasts_S128x1024_S1x128x1024⟩,
       ⟨S1x128x1024, shapeCast S1x128x1024 (chanSum x0 x1 ![2, 0, 0] ![5, 0, 0] ![8, 0, 0]
          slices_S9x128x1024_o2_0_0_S1x128x1024 slices_S9x128x1024_o5_0_0_S1x128x1024 slices_S9x128x1024_o8_0_0_S1x128x1024)
          shapeCasts_S128x1024_S1x128x1024⟩]
      concatenates_S1x128x1024_S1x128x1024_S1x128x1024_S3x128x1024_d0 := rfl

/-- One stacked plane [1, 128, 1024] of a matrix, at (0, r, w). -/
theorem asPlane_apply (x : FVec Ideal S128x1024 .f32) (r : Fin 128) (w : Fin 1024) :
    shapeCast S1x128x1024 x shapeCasts_S128x1024_S1x128x1024 (ix3 (0 : Fin 1) r w) = x (ix2 r w) :=
  shapeCast_apply _ _ (ix3 (0 : Fin 1) r w) (ix2 r w)
    (by rw [Shape.rowMajor_val_two, Shape.rowMajor_val_three]
        show r.val * 1024 + w.val = (0 * 128 + r.val) * 1024 + w.val; omega)

/-- The stacked channels at (ch, r, w): channel ch's weighted sum. -/
theorem stacked_apply (x0 : Vec Ideal S1x9x128x1024 .f32) (x1 : Vec Ideal S1x3x128x1024 .f32) (ch : Fin 3) (r : Fin 128) (w : Fin 1024) :
    k0_pay7 x0 x1 (ix3 ch r w)
      = blend3 (fun k => x0 (ix4 (0 : Fin 1) (⟨k.val * 3 + ch.val, by omega⟩ : Fin 9) r w)) (fun k => x1 (ix4 (0 : Fin 1) k r w)) := by
  rw [stacked_eq]
  have hoff : ∀ b : Fin 3, ∀ hne : b.cast (rfl : (3 : Nat) = 3) ≠ (0 : Fin 3),
      ((ix3 (0 : Fin 1) r w : S1x128x1024.Idx) b).val = ((ix3 ch r w : S3x128x1024.Idx) (b.cast rfl)).val := fun b hne =>
    match b, hne with
    | ⟨0, _⟩, hne => (hne (Fin.ext rfl)).elim
    | ⟨1, _⟩, _ => rfl
    | ⟨2, _⟩, _ => rfl
  match ch with
  | ⟨0, _⟩ =>
    refine (concatenate_apply_piece (t := S3x128x1024) (0 : Fin 3) _ _ (ix3 (⟨0, by omega⟩ : Fin 3) r w) 0 (by show (0 : Nat) < 3; omega) S1x128x1024 _ rfl rfl
      0 rfl (ix3 (0 : Fin 1) r w) hoff rfl).trans ?_
    rw [asPlane_apply]
    exact chanSum_apply x0 x1 _ _ _ _ _ _ ⟨0, by omega⟩ rfl rfl rfl rfl rfl rfl rfl rfl rfl r w
  | ⟨1, _⟩ =>
    refine (concatenate_apply_piece (t := S3x128x1024) (0 : Fin 3) _ _ (ix3 (⟨1, by omega⟩ : Fin 3) r w) 1 (by show (1 : Nat) < 3; omega) S1x128x1024 _ rfl rfl
      1 rfl (ix3 (0 : Fin 1) r w) hoff rfl).trans ?_
    rw [asPlane_apply]
    exact chanSum_apply x0 x1 _ _ _ _ _ _ ⟨1, by omega⟩ rfl rfl rfl rfl rfl rfl rfl rfl rfl r w
  | ⟨2, _⟩ =>
    refine (concatenate_apply_piece (t := S3x128x1024) (0 : Fin 3) _ _ (ix3 (⟨2, by omega⟩ : Fin 3) r w) 2 (by show (2 : Nat) < 3; omega) S1x128x1024 _ rfl rfl
      2 rfl (ix3 (0 : Fin 1) r w) hoff rfl).trans ?_
    rw [asPlane_apply]
    exact chanSum_apply x0 x1 _ _ _ _ _ _ ⟨2, by omega⟩ rfl rfl rfl rfl rfl rfl rfl rfl rfl r w

/-- Every index of an image block is (0, ch, r, w). -/
theorem eq_ix4_img (y : S1x3x128x1024.Idx) : y = ix4 (0 : Fin 1) (y 1) (y 2) (y 3) := by
  funext a
  match a with
  | ⟨0, _⟩ => exact Fin.ext (by have h : (y 0).val < 1 := (y 0).isLt; show (y 0).val = 0; omega)
  | ⟨1, _⟩ => rfl
  | ⟨2, _⟩ => rfl
  | ⟨3, _⟩ => rfl

/-- WHAT THE BODY STORES IN THE IMAGE BLOCK, at (0, ch, r, w): the clipped blend of the colour block's planes
    ch, 3 + ch, 6 + ch against the weight block's three planes, all at (r, w). -/
theorem image_payload (x0 : Vec Ideal S1x9x128x1024 .f32) (x1 : Vec Ideal S1x3x128x1024 .f32) (ch : Fin 3) (r : Fin 128) (w : Fin 1024) :
    k0_pay1 (k0_pay7 x0 x1) (Scalar.ofBits .f32 0x3F800000#32) (k0_pay8 (F := Ideal)) (ix4 (0 : Fin 1) ch r w)
      = clip01 (blend3 (fun k => x0 (ix4 (0 : Fin 1) (⟨k.val * 3 + ch.val, by omega⟩ : Fin 9) r w))
          (fun k => x1 (ix4 (0 : Fin 1) k r w))) := by
  show shapeCast S1x3x128x1024 (minimumf (broadcast S3x128x1024 (Scalar.ofBits .f32 0x3F800000#32))
      (maximumf (k0_pay8 (F := Ideal)) (k0_pay7 x0 x1))) shapeCasts_S3x128x1024_S1x3x128x1024 (ix4 (0 : Fin 1) ch r w) = _
  refine (shapeCast_apply _ _ (ix4 (0 : Fin 1) ch r w) (ix3 ch r w)
    (by rw [Shape.rowMajor_val_three, Shape.rowMajor_val_four]
        show (ch.val * 128 + r.val) * 1024 + w.val = ((0 * 3 + ch.val) * 128 + r.val) * 1024 + w.val; omega)).trans ?_
  show min (Ideal.ofBits .f32 0x3F800000#32) (max (Ideal.ofBits .f32 0x00000000#32) (k0_pay7 x0 x1 (ix3 ch r w))) = _
  rw [stacked_apply]
  rfl

/-- Every index of an alpha block is (0, 0, r, w). -/
theorem eq_ix4_alpha (y : S1x1x128x1024.Idx) : y = ix4 (0 : Fin 1) (0 : Fin 1) (y 2) (y 3) := by
  funext a
  match a with
  | ⟨0, _⟩ => exact Fin.ext (by have h : (y 0).val < 1 := (y 0).isLt; show (y 0).val = 0; omega)
  | ⟨1, _⟩ => exact Fin.ext (by have h : (y 1).val < 1 := (y 1).isLt; show (y 1).val = 0; omega)
  | ⟨2, _⟩ => rfl
  | ⟨3, _⟩ => rfl

/-- WHAT THE BODY STORES IN THE ALPHA BLOCK, at (0, 0, r, w): twice the sum of the weight block's three planes at
    (r, w), clipped. -/
theorem alpha_payload (x1 : Vec Ideal S1x3x128x1024 .f32) (r : Fin 128) (w : Fin 1024) :
    View.canon [(⟨r0_2, k0_pay2 (k0_pay4 x1) (k0_pay5 x1) (k0_pay6 x1)⟩ : View.Piece (Elt Ideal) S1x1x128x1024 .f32)]
        (ix4 (0 : Fin 1) (0 : Fin 1) r w)
      = clip01 (Ideal.ofBits .f32 0x40000000#32 *
          ((x1 (ix4 (0 : Fin 1) (0 : Fin 3) r w) + x1 (ix4 (0 : Fin 1) (1 : Fin 3) r w)) + x1 (ix4 (0 : Fin 1) (2 : Fin 3) r w))) := by
  refine (Value.canon3_eq x1 (ix4 (0 : Fin 1) (0 : Fin 1) r w)).trans ?_
  have e0 : Value.ix3_0 (ix4 (0 : Fin 1) (0 : Fin 1) r w) = ix4 (0 : Fin 1) (0 : Fin 3) r w :=
    funext fun a => match a with | ⟨0, _⟩ => rfl | ⟨1, _⟩ => rfl | ⟨2, _⟩ => rfl | ⟨3, _⟩ => rfl
  have e1 : Value.ix3_1 (ix4 (0 : Fin 1) (0 : Fin 1) r w) = ix4 (0 : Fin 1) (1 : Fin 3) r w :=
    funext fun a => match a with | ⟨0, _⟩ => rfl | ⟨1, _⟩ => rfl | ⟨2, _⟩ => rfl | ⟨3, _⟩ => rfl
  have e2 : Value.ix3_2 (ix4 (0 : Fin 1) (0 : Fin 1) r w) = ix4 (0 : Fin 1) (2 : Fin 3) r w :=
    funext fun a => match a with | ⟨0, _⟩ => rfl | ⟨1, _⟩ => rfl | ⟨2, _⟩ => rfl | ⟨3, _⟩ => rfl
  show clip01 (Ideal.ofBits .f32 0x40000000#32 *
      ((x1 (Value.ix3_0 (ix4 (0 : Fin 1) (0 : Fin 1) r w)) + x1 (Value.ix3_1 (ix4 (0 : Fin 1) (0 : Fin 1) r w)))
        + x1 (Value.ix3_2 (ix4 (0 : Fin 1) (0 : Fin 1) r w)))) = _
  rw [e0, e1, e2]

end Cert.KernelIdeal.Body

end
-- ==== Proof.KernelValue.lean ====
/-
  The kernel's two result arrays after the run, as the image and the alpha channel of the arguments.

  Grid point t = (gb, gh) stages batch gb, rows 128·gh … 128·gh + 127 of every window. What it writes back to the
  image window is, index by index, the clipped blend of the staged colour planes against the staged weight planes;
  those are the corner array and the weights array the host prepared, read at batch gb and row 128·gh + r — so the
  block is block t of the image. The 64 blocks tile the array.
-/
import proofs.«161789_j56401510531599_1_alg».proof.Proof.Gen.KernelIdeal.Value
import proofs.«161789_j56401510531599_1_alg».proof.Proof.KernelHost
import proofs.«161789_j56401510531599_1_alg».proof.Proof.KernelBody

noncomputable section

namespace Cert.KernelIdeal.Final

open Cert.KernelIdeal Cert.KernelIdeal.Gen Idealize.ShloMosaic Idealize.ShloMosaic.TcCoe Idealize.SL.Sem
open Idealize.ShloMosaic.ValueIdx Cert.Blend
open Idealize.ShloMosaic.Pipeline (Dat)

variable (m : (ℓ : Loc nD τ sig) → Buf (Elt Ideal) ℓ) (ρ : Dev nD → PrngReg)

theorem hz : (![0, 0, 0, 0] : Fin 4 → Nat) = fun _ => 0 := funext fun a => by fin_cases a <;> rfl

/-- The printed index maps, decided over the 64 grid points: every window moves with the image window — batch on
    axis 0, row tile on axis 2, nothing on axes 1 and 3. -/
theorem idx_facts : ∀ t : Fin cfg0.N,
    win0_0.index t (0 : Fin 4) = win0_2.index t (0 : Fin 4) ∧ win0_0.index t (1 : Fin 4) = 0
    ∧ win0_0.index t (2 : Fin 4) = win0_2.index t (2 : Fin 4) ∧ win0_0.index t (3 : Fin 4) = 0
    ∧ win0_1.index t (0 : Fin 4) = win0_2.index t (0 : Fin 4) ∧ win0_1.index t (1 : Fin 4) = 0
    ∧ win0_1.index t (2 : Fin 4) = win0_2.index t (2 : Fin 4) ∧ win0_1.index t (3 : Fin 4) = 0
    ∧ win0_3.index t (0 : Fin 4) = win0_2.index t (0 : Fin 4) ∧ win0_3.index t (1 : Fin 4) = 0
    ∧ win0_3.index t (2 : Fin 4) = win0_2.index t (2 : Fin 4) ∧ win0_3.index t (3 : Fin 4) = 0
    ∧ win0_2.index t (1 : Fin 4) = 0 ∧ win0_2.index t (3 : Fin 4) = 0
    ∧ win0_2.index t (0 : Fin 4) < 8 ∧ win0_2.index t (2 : Fin 4) < 8 :=
  (by decide +kernel : ∀ t : Fin grid0.N, _)

/-- Every (batch, row tile) is some point's, for the image window … -/
theorem idx_onto2 : ∀ (q0 q2 : Fin 8), ∃ t : Fin cfg0.N, win0_2.index t = ![q0.val, 0, q2.val, 0] :=
  (by decide +kernel : ∀ (q0 q2 : Fin 8), ∃ t : Fin grid0.N, win0_2.index t = ![q0.val, 0, q2.val, 0])

/-- … and for the alpha window. -/
theorem idx_onto3 : ∀ (q0 q2 : Fin 8), ∃ t : Fin cfg0.N, win0_3.index t = ![q0.val, 0, q2.val, 0] :=
  (by decide +kernel : ∀ (q0 q2 : Fin 8), ∃ t : Fin grid0.N, win0_3.index t = ![q0.val, 0, q2.val, 0])

/-- The batch point `t` stages. -/
def gb (t : Fin cfg0.N) : Fin 8 := ⟨win0_2.index t (0 : Fin 4), (idx_facts t).2.2.2.2.2.2.2.2.2.2.2.2.2.2.1⟩
/-- Row `r` of the tile point `t` stages, as a row of the array. -/
def row (t : Fin cfg0.N) (r : Fin 128) : Fin 1024 :=
  ⟨win0_2.index t (2 : Fin 4) * 128 + r.val, by have := (idx_facts t).2.2.2.2.2.2.2.2.2.2.2.2.2.2.2; omega⟩

/-- The vertex ids, the colour table and the weights of device `c`, as launched. -/
abbrev vid (c : Dev nD) : SPix.Idx → BitVec 32 :=
  Prelude.vids (m ((c : Thread nD τ).loc main_arg0)) (m ((c : Thread nD τ).loc main_arg3))
abbrev col (c : Dev nD) : SCol.Idx → EReal := m ((c : Thread nD τ).loc main_arg2)
abbrev bar (c : Dev nD) : SPix.Idx → EReal := m ((c : Thread nD τ).loc main_arg1)

/-- The staged colour block at (0, plane, r, w) is the corner array at the point's batch and row. -/
theorem cornerBlk_apply (c : Dev nD) (t : Fin cfg0.N) (c9 : Fin 9) (r : Fin 128) (w : Fin 1024) :
    iblk m c 0 t (ix4 (0 : Fin 1) c9 r w) = V m c main_v25 (ix4 (gb t) c9 (row t r) w) := by
  show V m c main_v25 (((cfg0.win 0).blk t).view.emb (ix4 (0 : Fin 1) c9 r w)) = _
  obtain ⟨e0, e1, e2, e3, -⟩ := idx_facts t
  refine congrArg (V m c main_v25) (funext fun a => Fin.ext ?_)
  match a with
  | ⟨0, _⟩ => show win0_0.index t (0 : Fin 4) * 1 + 1 * 0 = win0_2.index t (0 : Fin 4); omega
  | ⟨1, _⟩ => show win0_0.index t (1 : Fin 4) * 9 + 1 * c9.val = c9.val; omega
  | ⟨2, _⟩ => show win0_0.index t (2 : Fin 4) * 128 + 1 * r.val = win0_2.index t (2 : Fin 4) * 128 + r.val; omega
  | ⟨3, _⟩ => show win0_0.index t (3 : Fin 4) * 1024 + 1 * w.val = w.val; omega

/-- The staged weight block at (0, k, r, w) is the weights array at the point's batch and row. -/
theorem baryBlk_apply (c : Dev nD) (t : Fin cfg0.N) (k : Fin 3) (r : Fin 128) (w : Fin 1024) :
    iblk m c 1 t (ix4 (0 : Fin 1) k r w) = V m c main_v26 (ix4 (gb t) k (row t r) w) := by
  show V m c main_v26 (((cfg0.win 1).blk t).view.emb (ix4 (0 : Fin 1) k r w)) = _
  obtain ⟨-, -, -, -, e0, e1, e2, e3, -⟩ := idx_facts t
  refine congrArg (V m c main_v26) (funext fun a => Fin.ext ?_)
  match a with
  | ⟨0, _⟩ => show win0_1.index t (0 : Fin 4) * 1 + 1 * 0 = win0_2.index t (0 : Fin 4); omega
  | ⟨1, _⟩ => show win0_1.index t (1 : Fin 4) * 3 + 1 * k.val = k.val; omega
  | ⟨2, _⟩ => show win0_1.index t (2 : Fin 4) * 128 + 1 * r.val = win0_2.index t (2 : Fin 4) * 128 + r.val; omega
  | ⟨3, _⟩ => show win0_1.index t (3 : Fin 4) * 1024 + 1 * w.val = w.val; omega

/-- The staged colour, through the host's preparation: the colour table at the point's batch, the corner's row. -/
theorem cornerBlk_eq (c : Dev nD) (hv : ∀ i, 0 ≤ (vid m c i).toInt) (t : Fin cfg0.N) (k ch : Fin 3) (r : Fin 128) (w : Fin 1024) :
    iblk m c 0 t (ix4 (0 : Fin 1) (⟨k.val * 3 + ch.val, by omega⟩ : Fin 9) r w)
      = col m c (ix3 (gb t) (vrow (vid m c (ix4 (gb t) (row t r) w k))) ch) := by
  rw [cornerBlk_apply, Prelude.V_corners]
  exact Prelude.corners_apply _ _ hv (gb t) k ch (row t r) w

/-- The staged weight, through the host's transposition. -/
theorem baryBlk_eq (c : Dev nD) (t : Fin cfg0.N) (k : Fin 3) (r : Fin 128) (w : Fin 1024) :
    iblk m c 1 t (ix4 (0 : Fin 1) k r w) = bar m c (ix4 (gb t) (row t r) w k) := by
  rw [baryBlk_apply, Prelude.V_bary]
  exact Prelude.bary_apply _ (gb t) k (row t r) w

/-- Two pixels with the same coordinates have the same image value. -/
theorem imageAt_ext (v : SPix.Idx → BitVec 32) (cl : SCol.Idx → EReal) (br : SPix.Idx → EReal)
    {b b' : Fin 8} {ch ch' : Fin 3} {h h' w w' : Fin 1024} (eb : b.val = b'.val) (ec : ch.val = ch'.val)
    (eh : h.val = h'.val) (ew : w.val = w'.val) : imageAt v cl br b ch h w = imageAt v cl br b' ch' h' w' := by
  obtain rfl := Fin.ext eb; obtain rfl := Fin.ext ec; obtain rfl := Fin.ext eh; obtain rfl := Fin.ext ew; rfl

/-- Two pixels with the same coordinates have the same alpha. -/
theorem alphaAt_ext (br : SPix.Idx → EReal) {b b' : Fin 8} {h h' w w' : Fin 1024} (eb : b.val = b'.val)
    (eh : h.val = h'.val) (ew : w.val = w'.val) : alphaAt br b h w = alphaAt br b' h' w' := by
  obtain rfl := Fin.ext eb; obtain rfl := Fin.ext eh; obtain rfl := Fin.ext ew; rfl

/-- WHAT POINT `t` WRITES BACK TO THE IMAGE is block `t` of the image of the arguments. -/
theorem flushed_image (c : Dev nD) (hv : ∀ i, 0 ≤ (vid m c i).toInt) (t : Fin cfg0.N) :
    (dats m 0 c).flushed 2 t = ((cfg0.win 2).blk t).view.read (Elt Ideal) (image (vid m c) (col m c) (bar m c)) := by
  rw [Value.flushed2]
  unfold out0_2
  rw [View.canon_unit_zero hz]
  simp only [View.ld_unit_zero (S := S1x9x128x1024) hz, View.ld_unit_zero (S := S1x3x128x1024) hz]
  funext j
  obtain ⟨ch, r, w, rfl⟩ : ∃ (ch : Fin 3) (r : Fin 128) (w : Fin 1024), j = ix4 (0 : Fin 1) ch r w :=
    ⟨j 1, j 2, j 3, Body.eq_ix4_img j⟩
  show k0_pay1 (k0_pay7 (iblk m c 0 t) (iblk m c 1 t)) (Scalar.ofBits .f32 0x3F800000#32) (k0_pay8 (F := Ideal)) (ix4 (0 : Fin 1) ch r w)
    = image (vid m c) (col m c) (bar m c) (((cfg0.win 2).blk t).view.emb (ix4 (0 : Fin 1) ch r w))
  refine (Body.image_payload (iblk m c 0 t) (iblk m c 1 t) ch r w).trans ?_
  refine (congrArg clip01 (congrArg₂ blend3 (funext fun k => cornerBlk_eq m c hv t k ch r w)
    (funext fun k => baryBlk_eq m c t k r w))).trans ?_
  obtain ⟨-, -, -, -, -, -, -, -, -, -, -, -, e1, e3, -⟩ := idx_facts t
  show imageAt (vid m c) (col m c) (bar m c) (gb t) ch (row t r) w = imageAt (vid m c) (col m c) (bar m c) _ _ _ _
  refine imageAt_ext _ _ _ ?_ ?_ ?_ ?_
  · show win0_2.index t (0 : Fin 4) = win0_2.index t (0 : Fin 4) * 1 + 1 * 0; omega
  · show ch.val = win0_2.index t (1 : Fin 4) * 3 + 1 * ch.val; omega
  · show win0_2.index t (2 : Fin 4) * 128 + r.val = win0_2.index t (2 : Fin 4) * 128 + 1 * r.val; omega
  · show w.val = win0_2.index t (3 : Fin 4) * 1024 + 1 * w.val; omega

/-- WHAT POINT `t` WRITES BACK TO THE ALPHA CHANNEL is block `t` of the alpha channel of the arguments. -/
theorem flushed_alpha (c : Dev nD) (t : Fin cfg0.N) :
    (dats m 0 c).flushed 3 t = ((cfg0.win 3).blk t).view.read (Elt Ideal) (alpha (bar m c)) := by
  rw [Value.flushed3]
  unfold out0_3
  simp only [View.ld_unit_zero (S := S1x3x128x1024) hz]
  funext j
  obtain ⟨r, w, rfl⟩ : ∃ (r : Fin 128) (w : Fin 1024), j = ix4 (0 : Fin 1) (0 : Fin 1) r w :=
    ⟨j 2, j 3, Body.eq_ix4_alpha j⟩
  show View.canon [(⟨r0_2, k0_pay2 (k0_pay4 (iblk m c 1 t)) (k0_pay5 (iblk m c 1 t)) (k0_pay6 (iblk m c 1 t))⟩ :
      View.Piece (Elt Ideal) S1x1x128x1024 .f32)] (ix4 (0 : Fin 1) (0 : Fin 1) r w)
    = alpha (bar m c) (((cfg0.win 3).blk t).view.emb (ix4 (0 : Fin 1) (0 : Fin 1) r w))
  refine (Body.alpha_payload (iblk m c 1 t) r w).trans ?_
  rw [baryBlk_eq, baryBlk_eq, baryBlk_eq]
  obtain ⟨-, -, -, -, -, -, -, -, f0, f1, f2, f3, -⟩ := idx_facts t
  show alphaAt (bar m c) (gb t) (row t r) w = alphaAt (bar m c) _ _ _
  refine alphaAt_ext _ ?_ ?_ ?_
  · show win0_2.index t (0 : Fin 4) = win0_3.index t (0 : Fin 4) * 1 + 1 * 0; omega
  · show win0_2.index t (2 : Fin 4) * 128 + r.val = win0_3.index t (2 : Fin 4) * 128 + 1 * r.val; omega
  · show w.val = win0_3.index t (3 : Fin 4) * 1024 + 1 * w.val; omega

/-- An index of the image is in point `t`'s block iff each coordinate is in the block's range on its axis. -/
theorem mem_blk2 (t : Fin cfg0.N) (i : S8x3x1024x1024.Idx) :
    i ∈ ((cfg0.win 2).blk t).view.set ↔ ∀ a : Fin 4, win0_2.index t a * S1x3x128x1024.size a ≤ (i a).val
      ∧ (i a).val < win0_2.index t a * S1x3x128x1024.size a + S1x3x128x1024.size a := by
  show i ∈ ((View.whole main_v27_0).slice (win0_2.rect t)).set ↔ _
  rw [View.set_slice_whole, Rect.mem_set_unit]
  exact Iff.rfl

/-- The same for the alpha channel. -/
theorem mem_blk3 (t : Fin cfg0.N) (i : S8x1x1024x1024.Idx) :
    i ∈ ((cfg0.win 3).blk t).view.set ↔ ∀ a : Fin 4, win0_3.index t a * S1x1x128x1024.size a ≤ (i a).val
      ∧ (i a).val < win0_3.index t a * S1x1x128x1024.size a + S1x1x128x1024.size a := by
  show i ∈ ((View.whole main_v27_1).slice (win0_3.rect t)).set ↔ _
  rw [View.set_slice_whole, Rect.mem_set_unit]
  exact Iff.rfl

/-- Every index of the image is in the block of the point that stages its batch and its row's tile. -/
theorem cover2 (i : S8x3x1024x1024.Idx) :
    ∃ t : Fin cfg0.N, (cfg0.win 2).flush t = true ∧ i ∈ ((cfg0.win 2).blk t).view.set := by
  have h0 : (i 0).val < 8 := (i 0).isLt
  have h1 : (i 1).val < 3 := (i 1).isLt
  have h2 : (i 2).val < 1024 := (i 2).isLt
  have h3 : (i 3).val < 1024 := (i 3).isLt
  obtain ⟨t, ht⟩ := idx_onto2 ⟨(i 0).val, h0⟩ ⟨(i 2).val / 128, by omega⟩
  have q0 : win0_2.index t (0 : Fin 4) = (i 0).val := congrFun ht 0
  have q1 : win0_2.index t (1 : Fin 4) = 0 := congrFun ht 1
  have q2 : win0_2.index t (2 : Fin 4) = (i 2).val / 128 := congrFun ht 2
  have q3 : win0_2.index t (3 : Fin 4) = 0 := congrFun ht 3
  refine ⟨t, flush0_2 t, ?_⟩
  rw [mem_blk2]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 3 ≤ (i 1).val ∧ (i 1).val < win0_2.index t (1 : Fin 4) * 3 + 3; omega
  | ⟨2, _⟩ => show win0_2.index t (2 : Fin 4) * 128 ≤ (i 2).val ∧ (i 2).val < win0_2.index t (2 : Fin 4) * 128 + 128; omega
  | ⟨3, _⟩ => show win0_2.index t (3 : Fin 4) * 1024 ≤ (i 3).val ∧ (i 3).val < win0_2.index t (3 : Fin 4) * 1024 + 1024; omega

/-- Every index of the alpha channel is in the block of the point that stages its batch and its row's tile. -/
theorem cover3 (i : S8x1x1024x1024.Idx) :
    ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 1024 := (i 2).isLt
  have h3 : (i 3).val < 1024 := (i 3).isLt
  obtain ⟨t, ht⟩ := idx_onto3 ⟨(i 0).val, h0⟩ ⟨(i 2).val / 128, by omega⟩
  have q0 : win0_3.index t (0 : Fin 4) = (i 0).val := congrFun ht 0
  have q1 : win0_3.index t (1 : Fin 4) = 0 := congrFun ht 1
  have q2 : win0_3.index t (2 : Fin 4) = (i 2).val / 128 := congrFun ht 2
  have q3 : win0_3.index t (3 : Fin 4) = 0 := congrFun ht 3
  refine ⟨t, flush0_3 t, ?_⟩
  rw [mem_blk3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 128 ≤ (i 2).val ∧ (i 2).val < win0_3.index t (2 : Fin 4) * 128 + 128; omega
  | ⟨3, _⟩ => show win0_3.index t (3 : Fin 4) * 1024 ≤ (i 3).val ∧ (i 3).val < win0_3.index t (3 : Fin 4) * 1024 + 1024; omega

/-- THE IMAGE ARRAY after the run is the image of the arguments. -/
theorem final_image (c : Dev nD) (hv : ∀ i, 0 ≤ (vid m c i).toInt) :
    (dats m 0 c).arrAt 2 cfg0.N = image (vid m c) (col m c) (bar m c) :=
  (dats m 0 c).arrAt_eq_of_cover 2 _ (fun t _ => flushed_image m c hv t) cover2

/-- THE ALPHA ARRAY after the run is the alpha channel of the arguments. -/
theorem final_alpha (c : Dev nD) : (dats m 0 c).arrAt 3 cfg0.N = alpha (bar m c) :=
  (dats m 0 c).arrAt_eq_of_cover 3 _ (fun t _ => flushed_alpha m c t) cover3

/-- The run re-posted: both results as functions of the arguments, the arguments unchanged — given that on every
    device the vertex ids the host looks up are non-negative. -/
theorem run (hv : ∀ (c : Dev nD) i, 0 ≤ (vid m c i).toInt) :
    θ_run defs (onTc (τ := τ) (main (F := Ideal))) ⟨m, fun _ => 0, ρ⟩ fun r => ∀ c : Dev nD,
      r.2.mem ((c : Thread nD τ).loc main_v27_0) = image (vid m c) (col m c) (bar m c)
      ∧ r.2.mem ((c : Thread nD τ).loc main_v27_1) = alpha (bar m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_image m c (hv c)), (h c).2.1.trans (final_alpha m c), (h c).2.2⟩)
    (Value.run_blocks m ρ)

end Cert.KernelIdeal.Final

end
-- ==== Proof.RefRead.lean ====
/-
  The reference's two results as the image and the alpha channel of the arguments.

  The reference flattens the pixels to one axis p = (b · 1024 + h) · 1024 + w, the colour table to rows
  b · 35709 + vertex, adds b · 35709 to every vertex id, gathers the rows, multiplies by the weights, sums over the
  three corners from 0, clips, and lays the result back out as [b, ch, h, w]. A vertex id inside the table's range
  gives a flattened row inside batch b's stretch of rows: the row read is the colour table's at (b, vertex).
-/
import proofs.«161789_j56401510531599_1_alg».proof.Proof.Gen.ReferenceIdeal.Read
import proofs.«161789_j56401510531599_1_alg».proof.Proof.GatherRead
import proofs.«161789_j56401510531599_1_alg».proof.Proof.Words
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.Blend

variable (x0 : (⟨S8x1024x1024, .i32⟩ : BufTy).Contents (Elt Ideal)) (x1 : (⟨S8x1024x1024x3, .f32⟩ : BufTy).Contents (Elt Ideal))
variable (x2 : (⟨S8x35709x3, .f32⟩ : BufTy).Contents (Elt Ideal)) (x3 : (⟨S70789x3, .i32⟩ : BufTy).Contents (Elt Ideal))

/-- The flattened pixel number of (b, h, w). -/
def pix (b : Fin 8) (h w : Fin 1024) : Fin 8388608 := ⟨(b.val * 1024 + h.val) * 1024 + w.val, by omega⟩

/-! ## Where each layout operation reads -/

theorem idx28 (b : Fin 8) (ch : Fin 3) (h w : Fin 1024) : idx_main_v28 (ix4 b ch h w) = ix4 b h w ch :=
  funext fun a => match a with | ⟨0, _⟩ => rfl | ⟨1, _⟩ => rfl | ⟨2, _⟩ => rfl | ⟨3, _⟩ => rfl

theorem idx27 (b : Fin 8) (h w : Fin 1024) (ch : Fin 3) : idx_main_v27 (ix4 b h w ch) = ix2 (pix b h w) ch :=
  funext fun a => Fin.ext (match a with
    | ⟨0, _⟩ => by show (((b.val * 1024 + h.val) * 1024 + w.val) * 3 + ch.val) / 3 = (b.val * 1024 + h.val) * 1024 + w.val; omega
    | ⟨1, _⟩ => by show (((b.val * 1024 + h.val) * 1024 + w.val) * 3 + ch.val) % 3 = ch.val; omega)

theorem idx25 (p : Fin 8388608) (ch k : Fin 3) : idx_main_v25 (ix2 p ch) k = ix3 p k ch :=
  funext fun a => match a with | ⟨0, _⟩ => rfl | ⟨1, _⟩ => rfl | ⟨2, _⟩ => rfl

theorem idx23 (p : Fin 8388608) (k ch : Fin 3) : idx_main_v23 (ix3 p k ch) = ix3 p k (0 : Fin 1) :=
  funext fun a => match a with | ⟨0, _⟩ => rfl | ⟨1, _⟩ => rfl | ⟨2, _⟩ => rfl

theorem idx22 (b : Fin 8) (h w : Fin 1024) (k : Fin 3) : idx_main_v22 (ix3 (pix b h w) k (0 : Fin 1)) = ix4 b h w k :=
  funext fun a => Fin.ext (match a with
    | ⟨0, _⟩ => by show ((((b.val * 1024 + h.val) * 1024 + w.val) * 3 + k.val) * 1 + 0) / 3145728 = b.val; omega
    | ⟨1, _⟩ => by show ((((b.val * 1024 + h.val) * 1024 + w.val) * 3 + k.val) * 1 + 0) / 3072 % 1024 = h.val; omega
    | ⟨2, _⟩ => by show ((((b.val * 1024 + h.val) * 1024 + w.val) * 3 + k.val) * 1 + 0) / 3 % 1024 = w.val; omega
    | ⟨3, _⟩ => by show ((((b.val * 1024 + h.val) * 1024 + w.val) * 3 + k.val) * 1 + 0) % 3 = k.val; omega)

theorem idx20 (p : Fin 8388608) (k : Fin 3) : idx_main_v20 (ix3 p k (0 : Fin 1)) = ix2 p k :=
  funext fun a => match a with | ⟨0, _⟩ => rfl | ⟨1, _⟩ => rfl

theorem idx13 (b : Fin 8) (h w : Fin 1024) (k : Fin 3) : idx_main_v13 (ix2 (pix b h w) k) = ix4 b h w k :=
  funext fun a => Fin.ext (match a with
    | ⟨0, _⟩ => by show (((b.val * 1024 + h.val) * 1024 + w.val) * 3 + k.val) / 3145728 = b.val; omega
    | ⟨1, _⟩ => by show (((b.val * 1024 + h.val) * 1024 + w.val) * 3 + k.val) / 3072 % 1024 = h.val; omega
    | ⟨2, _⟩ => by show (((b.val * 1024 + h.val) * 1024 + w.val) * 3 + k.val) / 3 % 1024 = w.val; omega
    | ⟨3, _⟩ => by show (((b.val * 1024 + h.val) * 1024 + w.val) * 3 + k.val) % 3 = k.val; omega)

theorem idx10 (b : Fin 8) (h w : Fin 1024) (k : Fin 3) : idx_main_v10 (idx_main_v11 (ix4 b h w k)) = ix1 b :=
  funext fun a => match a with | ⟨0, _⟩ => rfl

theorem idx14 (b : Fin 8) (v : Fin 35709) (ch : Fin 3) :
    idx_main_v14 (ix2 (⟨b.val * 35709 + v.val, by omega⟩ : Fin 285672) ch) = ix3 b v ch :=
  funext fun a => Fin.ext (match a with
    | ⟨0, _⟩ => by show ((b.val * 35709 + v.val) * 3 + ch.val) / 107127 = b.val; omega
    | ⟨1, _⟩ => by show ((b.val * 35709 + v.val) * 3 + ch.val) / 3 % 35709 = v.val; omega
    | ⟨2, _⟩ => by show ((b.val * 35709 + v.val) * 3 + ch.val) % 3 = ch.val; omega)

theorem idx33 (b : Fin 8) (h w : Fin 1024) : idx_main_v33 (ix4 b (0 : Fin 1) h w) = ix2 (pix b h w) (0 : Fin 1) :=
  funext fun a => Fin.ext (match a with
    | ⟨0, _⟩ => by show (((b.val * 1 + 0) * 1024 + h.val) * 1024 + w.val) / 1 = (b.val * 1024 + h.val) * 1024 + w.val; omega
    | ⟨1, _⟩ => rfl)

theorem idx31 (p : Fin 8388608) (k : Fin 3) : idx_main_v31 (ix2 p (0 : Fin 1)) k = ix3 p k (0 : Fin 1) :=
  funext fun a => match a with | ⟨0, _⟩ => rfl | ⟨1, _⟩ => rfl | ⟨2, _⟩ => rfl

/-! ## The alpha channel -/

/-- THE REFERENCE'S ALPHA CHANNEL is the specification's: the three doubled weights summed from zero are twice their sum. -/
theorem ref_alpha : val_main_v33 (F := Ideal) x1 = alpha x1 := by
  funext i
  obtain ⟨b, h, w, rfl⟩ : ∃ (b : Fin 8) (h w : Fin 1024), i = ix4 b (0 : Fin 1) h w :=
    ⟨i 0, i 2, i 3, funext fun a => match a with
      | ⟨0, _⟩ => rfl
      | ⟨1, _⟩ => Fin.ext (by have h1 : (i 1).val < 1 := (i 1).isLt; show (i 1).val = 0; omega)
      | ⟨2, _⟩ => rfl
      | ⟨3, _⟩ => rfl⟩
  rw [val_main_v33_apply, idx33, val_main_v32_apply, val_main_call1_v4_apply, val_main_call1_v3_apply, val_main_cst_9_apply,
    val_main_call1_v2_apply, val_main_call1_v1_apply, val_main_call1_v0_apply, val_main_cst_8_apply, val_main_v31_apply,
    val_main_cst_7_apply]
  simp only [idx31, val_main_v30_apply, val_main_v29_apply, val_main_cst_6_apply, val_main_v22_apply, idx22]
  show min (Ideal.ofBits .f32 0x3F800000#32) (max (Ideal.ofBits .f32 0x00000000#32)
    (Ideal.ofBits .f32 0x00000000#32 + ∑ k : Fin 3, Ideal.ofBits .f32 0x40000000#32 * x1 (ix4 b h w k))) = _
  rw [← two_mul_sum (fun k => x1 (ix4 b h w k))]
  rfl

/-! ## The image -/

/-- The row gather at (p, k, ch): the flattened colour table at the clamped start row of (p, k), channel ch. -/
theorem v21_apply (p : Fin 8388608) (k ch : Fin 3) :
    val_main_v21 (F := Ideal) x0 x2 x3 (ix3 p k ch)
      = val_main_v14 (F := Ideal) x2
          (ix2 (⟨min (val_main_v20 (F := Ideal) x0 x3 (ix3 p k (0 : Fin 1))).toInt.toNat 285671, by omega⟩ : Fin 285672) ch) :=
  row_gather_apply gather_S285672x3_S8388608x3x1_S8388608x3x3_2_0_n_n_0_2_13_wf _ _ p k ch

/-- The start row of pixel (b, h, w), corner k, for vertex ids inside the table: `b · 35709 + vertex`. -/
theorem start_row (hv : ∀ i, 0 ≤ (val_main_v6 (F := Ideal) x0 x3 i).toInt ∧ (val_main_v6 (F := Ideal) x0 x3 i).toInt < 35709)
    (b : Fin 8) (h w : Fin 1024) (k : Fin 3) :
    min (val_main_v20 (F := Ideal) x0 x3 (ix3 (pix b h w) k (0 : Fin 1))).toInt.toNat 285671
      = b.val * 35709 + (vrow (val_main_v6 (F := Ideal) x0 x3 (ix4 b h w k))).val := by
  rw [val_main_v20_apply, idx20, val_main_v19_apply, val_main_v16_apply, val_main_v18_apply, val_main_v15_apply, val_main_c_2_apply,
    val_main_v17_apply, val_main_c_3_apply, val_main_v13_apply, idx13, val_main_v12_apply, val_main_v11_apply, val_main_v10_apply, idx10,
    val_main_v9_apply, val_main_v7_apply, val_main_v8_apply, val_main_c_1_apply]
  exact flat_row _ b.val b.isLt (hv _).1 (hv _).2

/-- The gathered colour of pixel (b, h, w), corner k, channel ch: the colour table at batch b, the vertex's row. -/
theorem corner_read (hv : ∀ i, 0 ≤ (val_main_v6 (F := Ideal) x0 x3 i).toInt ∧ (val_main_v6 (F := Ideal) x0 x3 i).toInt < 35709)
    (b : Fin 8) (h w : Fin 1024) (k ch : Fin 3) :
    val_main_v21 (F := Ideal) x0 x2 x3 (ix3 (pix b h w) k ch)
      = x2 (ix3 b (vrow (val_main_v6 (F := Ideal) x0 x3 (ix4 b h w k))) ch) := by
  rw [v21_apply, val_main_v14_apply, ← idx14 b (vrow (val_main_v6 (F := Ideal) x0 x3 (ix4 b h w k))) ch]
  exact congrArg x2 (congrArg idx_main_v14 (congrArg (fun p : Fin 285672 => ix2 p ch) (Fin.ext (start_row x0 x3 hv b h w k))))

/-- THE REFERENCE'S IMAGE is the specification's, for vertex ids inside the colour table: the three products summed
    from zero are the kernel's left-to-right sum. -/
theorem ref_image (hv : ∀ i, 0 ≤ (val_main_v6 (F := Ideal) x0 x3 i).toInt ∧ (val_main_v6 (F := Ideal) x0 x3 i).toInt < 35709) :
    val_main_v28 (F := Ideal) x0 x1 x2 x3 = image (val_main_v6 (F := Ideal) x0 x3) x2 x1 := by
  funext i
  obtain ⟨b, ch, h, w, rfl⟩ : ∃ (b : Fin 8) (ch : Fin 3) (h w : Fin 1024), i = ix4 b ch h w :=
    ⟨i 0, i 1, i 2, i 3, eq_ix4 i⟩
  rw [val_main_v28_apply, idx28, val_main_v27_apply, idx27, val_main_v26_apply, val_main_call0_v4_apply, val_main_call0_v3_apply,
    val_main_cst_5_apply, val_main_call0_v2_apply, val_main_call0_v1_apply, val_main_call0_v0_apply, val_main_cst_4_apply,
    val_main_v25_apply, val_main_cst_apply]
  simp only [idx25, val_main_v24_apply, val_main_v23_apply, idx23, val_main_v22_apply, idx22, corner_read x0 x2 x3 hv]
  show min (Ideal.ofBits .f32 0x3F800000#32) (max (Ideal.ofBits .f32 0x00000000#32)
    (Ideal.ofBits .f32 0x00000000#32
      + ∑ k : Fin 3, x2 (ix3 b (vrow (val_main_v6 (F := Ideal) x0 x3 (ix4 b h w k))) ch) * x1 (ix4 b h w k))) = _
  rw [← blend3_eq_sum (fun k => x2 (ix3 b (vrow (val_main_v6 (F := Ideal) x0 x3 (ix4 b h w k))) ch)) (fun k => x1 (ix4 b h w k))]
  rfl

end Cert.ReferenceIdeal.RefValue

end
-- ==== Proof.PreRange.lean ====
/-
  What the precondition says of the triangle table: every vertex id lies in the colour table's range, 0 ≤ id < 35709.

  The precondition is the conjunction of four `all`-reductions; the last two compare every entry of the triangle table
  with 0 (signed ≥) and with 35709 (signed <). A conjunction that is 1 has both conjuncts 1, an `all` that is 1 has
  every element 1, and a comparison's bit that is 1 says the comparison holds.
-/
import proofs.«161789_j56401510531599_1_alg».proof.Pre_finite_inputs
import Idealize.ShloMosaic.Lib.ReduceAll
import Idealize.ShloMosaic.Lib.ValueIdx
import Idealize.ShloMosaic.Lib.IdealHost

noncomputable section

namespace Cert.Pre_finite_inputs.Range

open Cert.Pre_finite_inputs Cert.Pre_finite_inputs.Facts Idealize.ShloMosaic Idealize.ShloMosaic.ValueIdx

instance : Subsingleton S_.Idx := ⟨fun a b => funext fun d => d.elim0⟩

/-- Under the precondition every entry of the triangle table is a vertex id inside the colour table. -/
theorem tri_range {F : FTy → Type} [FloatOps F] [Facts] (a0 : IVec S8x1024x1024 32) (a1 : FVec F S8x1024x1024x3 .f32)
    (a2 : FVec F S8x35709x3 .f32) (a3 : IVec S70789x3 32) (h : fn (F := F) a0 a1 a2 a3 = fun _ => 1#1) (i : S70789x3.Idx) :
    0 ≤ (a3 i).toInt ∧ (a3 i).toInt < 35709 := by
  have h0 := congrFun h ix0
  dsimp only [fn, fn_part1] at h0
  obtain ⟨h12, h15⟩ := IntOp.andi_eq_one.1 h0
  obtain ⟨h8, h11⟩ := IntOp.andi_eq_one.1 h12
  have g11 := Host.reduce_andi_all _ _ _ _ ix0 h11 i
  have g15 := Host.reduce_andi_all _ _ _ _ ix0 h15 i
  have l := IntOp.cmpi_sge.1 g11
  have u := IntOp.cmpi_slt.1 g15
  rw [broadcastInDim_scalar_apply] at l u
  have z : (constantI S_ 32 0#32 ix0 : BitVec 32).toInt = 0 := by decide
  have t : (constantI S_ 32 35709#32 ix0 : BitVec 32).toInt = 35709 := by decide
  rw [z] at l
  rw [t] at u
  exact ⟨l, u⟩

end Cert.Pre_finite_inputs.Range

end
-- ==== Proof.lean ====
/-
  A rasterizer's shading pass against its reference, on the extended reals.

  Per pixel (b, h, w): a triangle id is looked up in the triangle table, giving three vertex ids; each vertex id names a
  row of batch b's colour table; the image's channel ch is clip₀¹ (Σₖ colourₖ(ch) · baryₖ) over the three corners k,
  the alpha channel clip₀¹ (2 · Σₖ baryₖ). The kernel looks a colour up by the pair (b, vertex) and adds the three
  products left to right inside a grid of 64 blocks; the reference looks it up by the flattened row b · 35709 + vertex
  and sums from zero. Under the precondition every vertex id lies in 0 … 35708, so the flattened row is batch b's own;
  addition on the extended reals is commutative and associative, and doubling distributes over it, so the two programs
  compute one function of the arguments — no finiteness of the float inputs is used.

  The modules: `Blend` (the specification and the two laws), `GatherRead` and `Words` (a gather at an index; the
  integer facts), `KernelHost`, `KernelBody`, `KernelValue` (the kernel's host preparation, its body and its result
  arrays), `RefRead` (the reference), `PreRange` (the vertex ids' range out of the precondition).
-/
import proofs.«161789_j56401510531599_1_alg».proof.Defs
import proofs.«161789_j56401510531599_1_alg».proof.Proof.Gen.Kernel
import proofs.«161789_j56401510531599_1_alg».proof.Proof.Gen.Kernel.Skeleton
import proofs.«161789_j56401510531599_1_alg».proof.Proof.Gen.Kernel.Launch
import proofs.«161789_j56401510531599_1_alg».proof.Proof.Gen.Kernel.Points
import proofs.«161789_j56401510531599_1_alg».proof.Proof.Gen.Kernel.Frame
import proofs.«161789_j56401510531599_1_alg».proof.Proof.Gen.KernelIdeal
import proofs.«161789_j56401510531599_1_alg».proof.Proof.Gen.KernelIdeal.Skeleton
import proofs.«161789_j56401510531599_1_alg».proof.Proof.Gen.KernelIdeal.Launch
import proofs.«161789_j56401510531599_1_alg».proof.Proof.Gen.KernelIdeal.Points
import proofs.«161789_j56401510531599_1_alg».proof.Proof.Gen.KernelIdeal.Frame
import proofs.«161789_j56401510531599_1_alg».proof.Proof.Gen.ReferenceIdeal
import proofs.«161789_j56401510531599_1_alg».proof.Proof.Gen.Pre_finite_inputs
import proofs.«161789_j56401510531599_1_alg».proof.Proof.Gen.KernelIdeal.Value
import proofs.«161789_j56401510531599_1_alg».proof.Proof.Gen.ReferenceIdeal.Run
import proofs.«161789_j56401510531599_1_alg».proof.Proof.Gen.ReferenceIdeal.Read
import proofs.«161789_j56401510531599_1_alg».proof.Proof.KernelValue
import proofs.«161789_j56401510531599_1_alg».proof.Proof.RefRead
import proofs.«161789_j56401510531599_1_alg».proof.Proof.PreRange
import Idealize.ShloMosaic.Adequacy
import Idealize.ShloMosaic.Init

noncomputable section

namespace Cert.Proof

open Idealize.ShloMosaic Idealize.ShloMosaic.TcCoe Idealize.SL.Sem Cert.Blend

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The vertex ids the kernel's host code looks up are entries of the triangle table, so the precondition puts them
    inside the colour table. -/
theorem vids_range (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.Blend.SPix.Idx) :
    0 ≤ (Cert.KernelIdeal.Final.vid m c i).toInt ∧ (Cert.KernelIdeal.Final.vid m c i).toInt < 35709 :=
  Cert.Pre_finite_inputs.Range.tri_range _ _ _ _ (hpre c) _

/-- Both programs end with the image and the alpha channel of the arguments: the kernel by its blocks (`Final.run`),
    the reference by its run read at an index (`RefValue.ref_image`, `ref_alpha`), from memories that agree on the
    arguments. -/
theorem algebraic : Cert.algebraic_KernelIdeal_ReferenceIdeal := by
  intro m ρ m' ρ' hpre hagree
  have hv := vids_range m hpre
  refine ⟨fun c => image (Cert.KernelIdeal.Final.vid m c) (Cert.KernelIdeal.Final.col m c) (Cert.KernelIdeal.Final.bar m c),
    fun c => alpha (Cert.KernelIdeal.Final.bar m c), Cert.KernelIdeal.Final.run m ρ (fun c i => (hv c i).1), ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v28_eq, (hagree c).1, (hagree c).2.1, (hagree c).2.2.1, (hagree c).2.2.2]
    exact Cert.ReferenceIdeal.RefValue.ref_image _ _ _ _ (hv c)
  · rw [(h c).2.1, Cert.ReferenceIdeal.Read.val_main_v33_eq, (hagree c).2.1]
    exact Cert.ReferenceIdeal.RefValue.ref_alpha _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
